-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩

abbrev nBuf : Space → Nat
  | .hbm => 56
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S100000x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S1x128_S1x128 : S1x128.ShapeCasts S1x128
  bitsLt_bf16_f32 : FTy.bits .bf16 < FTy.bits .f32
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S10000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v27_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S100000x64, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its result named.

  From any memory with zero counters every weakly fair execution of the program on the TensorCores terminates,
  nothing faulting, and in every final state the result array holds the contents that the fold through the
  program's six segments (three stretches of host operations, three pipelined regions) assigns to it, and the ten
  argument arrays hold what they held at launch. The run ends with every unscoped buffer at the last boundary's
  contents; the statement reads that off at the result's buffer and at each argument's.
-/
import proofs.«129211_j18184891531553_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every weakly fair execution terminates with the result array at the last boundary's contents and the
    arguments as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v34) = Gen.W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (Gen.mem_uc main_v34 (by decide)),
       (h c _ (Gen.mem_uc main_arg0 (by decide))).trans (Gen.W6_main_arg0 m ρ c),
       (h c _ (Gen.mem_uc main_arg1 (by decide))).trans (Gen.W6_main_arg1 m ρ c),
       (h c _ (Gen.mem_uc main_arg2 (by decide))).trans (Gen.W6_main_arg2 m ρ c),
       (h c _ (Gen.mem_uc main_arg3 (by decide))).trans (Gen.W6_main_arg3 m ρ c),
       (h c _ (Gen.mem_uc main_arg4 (by decide))).trans (Gen.W6_main_arg4 m ρ c),
       (h c _ (Gen.mem_uc main_arg5 (by decide))).trans (Gen.W6_main_arg5 m ρ c),
       (h c _ (Gen.mem_uc main_arg6 (by decide))).trans (Gen.W6_main_arg6 m ρ c),
       (h c _ (Gen.mem_uc main_arg7 (by decide))).trans (Gen.W6_main_arg7 m ρ c),
       (h c _ (Gen.mem_uc main_arg8 (by decide))).trans (Gen.W6_main_arg8 m ρ c),
       (h c _ (Gen.mem_uc main_arg9 (by decide))).trans (Gen.W6_main_arg9 m ρ c)⟩)

end Cert.KernelIdeal.Val

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.Spec.lean ====
/-
  The mathematics of the two programs, over plain functions of indices into the extended reals.

  A graph-isomorphism layer on 100000 nodes: the node features x plus the neighbour sums agg go through two
  stages "dense layer, clamp at zero, batch normalisation". A dense layer sends a matrix A to
  max (A · W + b, 0). Batch normalisation of a matrix H, column by column, is
  g · (H − μ) · (v + ε)^(−1/2) + β with μ the column's mean over the rows. The two programs differ in how the
  column's variance v is taken: one as the mean of the squares minus the square of the mean (from the two
  column sums Σ H and Σ H²), the other as the mean of the squared deviations from the mean. On columns of real
  numbers the two are the same real number; everything else is term for term the same.
-/
import Idealize.ShloMosaic.PureOps.Ideal
import Idealize.ShloMosaic.Lib.ValueIdx
import Idealize.ShloMosaic.PureOps.Ideal.Laws
import proofs.«129211_j18184891531553_1_alg».proof.Proof.LibRealSums

noncomputable section

open scoped BigOperators

namespace Cert.Spec

open Idealize.ShloMosaic

/-- An a × b matrix of extended reals. -/
abbrev Mat (a b : ℕ) := Fin a → Fin b → EReal
/-- A row of n extended reals. -/
abbrev Row (n : ℕ) := Fin n → EReal

/-- The entries of a rank-2 array as a matrix. -/
def mat {a b : ℕ} (x : (⟨2, ![a, b]⟩ : Shape).Idx → EReal) : Mat a b := fun r k => x (ValueIdx.ix2 r k)
/-- The entries of a rank-1 array as a row. -/
def vec {n : ℕ} (x : (⟨1, ![n]⟩ : Shape).Idx → EReal) : Row n := fun j => x (ValueIdx.ix1 j)

/-- "Is (the image of) a real number". -/
def IsReal (a : EReal) : Prop := ∃ r : ℝ, a = (r : EReal)

/-- The floor of the clamp: the f32 word of 0.0. -/
def zeroE : EReal := Ideal.ofBits .f32 0x00000000#32
/-- The ε of the normalisation: the f32 word nearest 1e-5. -/
def epsE : EReal := Ideal.ofBits .f32 0x3727C5AC#32
/-- The number of rows as the programs spell it: the f32 word of 100000.0. -/
def cntE : EReal := Ideal.ofBits .f32 0x47C35000#32

theorem zeroE_eq : zeroE = 0 := Ideal.ofBits_zero_f32

theorem cntE_eq : cntE = ((100000 : ℝ) : EReal) := by
  unfold cntE
  simp [Ideal.ofBits, Ideal.ieee, -EReal.coe_mul]; norm_num

/-- ε is a positive real. -/
theorem epsE_pos : ∃ e : ℝ, 0 < e ∧ epsE = (e : EReal) := by
  unfold epsE
  refine ⟨_, ?_, rfl⟩
  simp [Ideal.ofBits, Ideal.ieee, -EReal.coe_mul]

/-- A dense layer with a clamp at zero: max (A · W + b, 0), entry (r, j). -/
def dense {M K N : ℕ} (A : Mat M K) (W : Mat K N) (b : Row N) : Mat M N :=
  fun r j => max (∑ k : Fin K, A r k * W k j + b j) zeroE

/-- The sum of each column over the rows. -/
def colSum {M N : ℕ} (H : Mat M N) : Row N := fun j => ∑ r : Fin M, H r j
/-- The sum of the squares of each column over the rows. -/
def colSumSq {M N : ℕ} (H : Mat M N) : Row N := fun j => ∑ r : Fin M, H r j * H r j
/-- A column sum divided by the number of rows. -/
def mean {N : ℕ} (S : Row N) : Row N := fun j => Ideal.div (S j) cntE
/-- The variance from the two moments: (Σ H²)/n − ((Σ H)/n)². -/
def varMoments {N : ℕ} (S Q : Row N) : Row N := fun j => Ideal.div (Q j) cntE - mean S j * mean S j
/-- The variance as the mean of the squared deviations from the mean. -/
def varCentred {M N : ℕ} (H : Mat M N) : Row N :=
  fun j => Ideal.div (∑ r : Fin M, (H r j - mean (colSum H) j) * (H r j - mean (colSum H) j)) cntE
/-- The normalisation with given column statistics: g · (H − μ) · (v + ε)^(−1/2) + β. -/
def norm {M N : ℕ} (H : Mat M N) (mu var g be : Row N) : Mat M N :=
  fun r j => g j * (H r j - mu j) * Ideal.rsqrt (var j + epsE) + be j

/-- Batch normalisation with the variance taken from the two moments. -/
def bnMoments {M N : ℕ} (H : Mat M N) (g be : Row N) : Mat M N :=
  norm H (mean (colSum H)) (varMoments (colSum H) (colSumSq H)) g be
/-- Batch normalisation with the variance taken as the mean squared deviation. -/
def bnCentred {M N : ℕ} (H : Mat M N) (g be : Row N) : Mat M N :=
  norm H (mean (colSum H)) (varCentred H) g be

/-- The whole layer with the variance from the moments. -/
def fwdMoments (x agg : Mat 100000 64) (W1 : Mat 64 128) (b1 g1 be1 : Row 128) (W2 : Mat 128 128)
    (b2 g2 be2 : Row 128) : Mat 100000 128 :=
  bnMoments (dense (bnMoments (dense (fun r k => x r k + agg r k) W1 b1) g1 be1) W2 b2) g2 be2

/-- The whole layer with the variance as the mean squared deviation. -/
def fwdCentred (x agg : Mat 100000 64) (W1 : Mat 64 128) (b1 g1 be1 : Row 128) (W2 : Mat 128 128)
    (b2 g2 be2 : Row 128) : Mat 100000 128 :=
  bnCentred (dense (bnCentred (dense (fun r k => x r k + agg r k) W1 b1) g1 be1) W2 b2) g2 be2

/-! ## Reals stay reals -/

theorem isReal_zeroE : IsReal zeroE := ⟨0, by rw [zeroE_eq]; rfl⟩

theorem dense_isReal {M K N : ℕ} {A : Mat M K} {W : Mat K N} {b : Row N}
    (hA : ∀ r k, IsReal (A r k)) (hW : ∀ k j, IsReal (W k j)) (hb : ∀ j, IsReal (b j)) (r : Fin M) (j : Fin N) :
    IsReal (dense A W b r j) :=
  RealSums.isReal_max (RealSums.isReal_add (RealSums.isReal_sum _ fun k => RealSums.isReal_mul (hA r k) (hW k j)) (hb j))
    isReal_zeroE

theorem mean_isReal {N : ℕ} {S : Row N} (hS : ∀ j, IsReal (S j)) (j : Fin N) : IsReal (mean S j) := by
  unfold mean; rw [cntE_eq]; exact RealSums.isReal_div (hS j) (by norm_num)

/-- On a matrix of reals the two variances agree, column by column. -/
theorem var_eq {N : ℕ} (H : Mat 100000 N) (hH : ∀ r j, IsReal (H r j)) :
    varMoments (colSum H) (colSumSq H) = varCentred H := by
  funext j
  choose w hw using fun r => hH r j
  have hc0 : (100000 : ℝ) ≠ 0 := by norm_num
  have hz : (fun r => H r j) = fun r => ((w r : ℝ) : EReal) := funext hw
  unfold varMoments varCentred mean colSum colSumSq
  rw [cntE_eq]
  simp only [show ∀ r, H r j = ((w r : ℝ) : EReal) from hw]
  simp only [← EReal.coe_mul, RealSums.coe_finset_sum, RealSums.div_coe_coe _ hc0, ← EReal.coe_sub]
  exact congrArg _ (RealSums.real_var_law w 100000 (by simp) hc0)

/-- The mean squared deviation of a column of reals is a nonnegative real. -/
theorem varCentred_nonneg {N : ℕ} (H : Mat 100000 N) (hH : ∀ r j, IsReal (H r j)) (j : Fin N) :
    ∃ v : ℝ, 0 ≤ v ∧ varCentred H j = (v : EReal) := by
  unfold varCentred mean colSum
  rw [cntE_eq]
  exact RealSums.var_isReal_nonneg (fun r => H r j) (fun r => hH r j) 100000 (by norm_num)

theorem bn_eq {N : ℕ} (H : Mat 100000 N) (hH : ∀ r j, IsReal (H r j)) (g be : Row N) :
    bnMoments H g be = bnCentred H g be := by
  unfold bnMoments bnCentred; rw [var_eq H hH]

theorem bnCentred_isReal {N : ℕ} (H : Mat 100000 N) (hH : ∀ r j, IsReal (H r j)) {g be : Row N}
    (hg : ∀ j, IsReal (g j)) (hbe : ∀ j, IsReal (be j)) (r : Fin 100000) (j : Fin N) :
    IsReal (bnCentred H g be r j) := by
  unfold bnCentred norm
  obtain ⟨v, hv, hve⟩ := varCentred_nonneg H hH j
  obtain ⟨e, he, hee⟩ := epsE_pos
  have hmu : IsReal (mean (colSum H) j) := mean_isReal (fun j => RealSums.isReal_sum _ fun r => hH r j) j
  refine RealSums.isReal_add (RealSums.isReal_mul (RealSums.isReal_mul (hg j) (RealSums.isReal_sub (hH r j) hmu)) ?_) (hbe j)
  refine RealSums.isReal_rsqrt ⟨v + e, by linarith, ?_⟩
  rw [hve, hee, EReal.coe_add]

/-- The two spellings of the layer agree on real inputs. -/
theorem fwd_eq (x agg : Mat 100000 64) (W1 : Mat 64 128) (b1 g1 be1 : Row 128) (W2 : Mat 128 128)
    (b2 g2 be2 : Row 128)
    (hx : ∀ r k, IsReal (x r k)) (hagg : ∀ r k, IsReal (agg r k)) (hW1 : ∀ k j, IsReal (W1 k j))
    (hb1 : ∀ j, IsReal (b1 j)) (hg1 : ∀ j, IsReal (g1 j)) (hbe1 : ∀ j, IsReal (be1 j))
    (hW2 : ∀ k j, IsReal (W2 k j)) (hb2 : ∀ j, IsReal (b2 j)) :
    fwdMoments x agg W1 b1 g1 be1 W2 b2 g2 be2 = fwdCentred x agg W1 b1 g1 be1 W2 b2 g2 be2 := by
  unfold fwdMoments fwdCentred
  have h1 : ∀ r j, IsReal (dense (fun r k => x r k + agg r k) W1 b1 r j) :=
    dense_isReal (fun r k => RealSums.isReal_add (hx r k) (hagg r k)) hW1 hb1
  rw [bn_eq _ h1]
  have h2 : ∀ r j, IsReal (dense (bnCentred (dense (fun r k => x r k + agg r k) W1 b1) g1 be1) W2 b2 r j) :=
    dense_isReal (bnCentred_isReal _ h1 hg1 hbe1) hW2 hb2
  rw [bn_eq _ h2]

end Cert.Spec

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.Arr.lean ====
import proofs.«129211_j18184891531553_1_alg».proof.Proof.Spec
import proofs.«129211_j18184891531553_1_alg».proof.Proof.LibTileSum

noncomputable section

open scoped BigOperators

/-! Matrices and rows as arrays, and the rows of the 100000 × · arrays taken ten tiles of 10000 at a time. -/

namespace Cert.Spec

open Idealize.ShloMosaic Idealize.ShloMosaic.ValueIdx

/-- A matrix as a rank-2 array. -/
def arrOf {a b : ℕ} (M : Mat a b) : (⟨2, ![a, b]⟩ : Shape).Idx → EReal :=
  fun i => M ⟨(i 0).val, (i 0).isLt⟩ ⟨(i 1).val, (i 1).isLt⟩

/-- A row as a 1 × n array. -/
def rowArr {n : ℕ} (f : Row n) : (⟨2, ![1, n]⟩ : Shape).Idx → EReal := fun i => f ⟨(i 1).val, (i 1).isLt⟩

theorem arrOf_ix2 {a b : ℕ} (M : Mat a b) (r : Fin a) (j : Fin b) : arrOf M (ix2 r j) = M r j := rfl
theorem rowArr_ix2 {n : ℕ} (f : Row n) (j : Fin n) : rowArr f (ix2 (0 : Fin 1) j) = f j := rfl
theorem mat_arrOf {a b : ℕ} (M : Mat a b) : mat (arrOf M) = M := rfl

/-- Row p of tile n among 100000 rows in tiles of 10000 (wrapping past the last tile, where it is never used). -/
def rowN (n : ℕ) (p : Fin 10000) : Fin 100000 := TileSum.posN (W := 10000) (N := 100000) (by norm_num) n p

theorem rowN_val (n : ℕ) (hn : n < 10) (p : Fin 10000) : (rowN n p).val = 10000 * n + p.val :=
  TileSum.posN_val (T := 10) (W := 10000) (N := 100000) rfl (by norm_num) n hn p

/-- Ten tiles of 10000 rows, summed one after the other, give the sum over all 100000 rows. -/
theorem sum_tiles {M : Type*} [AddCommMonoid M] (g : Fin 100000 → M) :
    ∑ s ∈ Finset.range 10, ∑ p : Fin 10000, g (rowN s p) = ∑ r : Fin 100000, g r :=
  TileSum.sum_range_tiles (T := 10) (W := 10000) (N := 100000) rfl (by norm_num) g

end Cert.Spec

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibColSum.lean ====
/-
  A column sum read at an index, over the extended reals.

  For an a × b matrix, a `vector.multi_reduction <add>` over the leading axis (the rows) from the neutral
  accumulator reads, at column q, the sum over the a rows p of the entries (p, q): what `jnp.sum(x, axis=0)` is,
  lane by lane, at the exact values.
-/
import Idealize.ShloMosaic.Lib.ValueIdx
import Idealize.ShloMosaic.PureOps.Ideal.Laws

noncomputable section

open scoped BigOperators

namespace Idealize.ShloMosaic.ColSum

open Idealize.ShloMosaic Idealize.ShloMosaic.ValueIdx

/-- The sum over the rows of an `[a, b]` array, at column `q`: the sum over `p` of the entries `(p, q)`. -/
theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = ∑ p : Fin a, src (ix2 p q)
  refine Finset.sum_congr rfl fun p _ => congrArg src ?_
  exact funext fun c => Fin.ext (by match c with | ⟨0, _⟩ => rfl | ⟨1, _⟩ => rfl)

end Idealize.ShloMosaic.ColSum

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibAffineRow.lean ====
/-
  An affine layer as vector operations compute it, read at an index, over the extended reals.

  For an M × K matrix `a`, a K × N weight matrix `w` and a bias `b` of N numbers, the layer is the plain product of
  `a` with `w` (a `tpu.matmul` into the zero accumulator, the weights passed through a change of float format, which
  is the identity on extended reals) plus the bias viewed as one row [1, N] and spread over the M rows. At (r, j) that
  is Σ_k a(r, k) · w(k, j) + b(j), for any extents M, K, N.
-/
import Idealize.ShloMosaic.Lib.ValueIdx
import Idealize.ShloMosaic.Lib.ValueLayout
import Idealize.ShloMosaic.Lib.Pipeline.Value
import Idealize.ShloMosaic.PureOps.Ideal.Laws
import proofs.«129211_j18184891531553_1_alg».proof.Proof.LibPlainDot

noncomputable section

open scoped BigOperators

namespace Idealize.ShloMosaic.AffineRow

open Idealize.ShloMosaic Idealize.ShloMosaic.ValueIdx

variable {M K N : Nat}

/-- A vector of N numbers viewed as one row [1, N], read at (0, j), is its entry j: both sit at row-major position j. -/
theorem oneRow_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_one, Shape.rowMajor_val_two]
    show j.val = 0 * N + j.val
    rw [Nat.zero_mul, Nat.zero_add])

/-- The bias row spread over M rows, at (r, j), is the bias's entry j. -/
theorem biasRows_apply {α : Type} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (j : Fin N) :
    broadcastTo ⟨2, ![M, N]⟩ (shapeCast ⟨2, ![1, N]⟩ b h1) h2 (ix2 r j) = b (ix1 j) :=
  (broadcastTo_1b_ab_apply _ h2 r j).trans (oneRow_apply b h1 j)

/-- The layer at (r, j): Σ_k a(r, k) · w(k, j) + b(j). -/
theorem layer_apply {φ : FTy} (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.plain M K N) prec a (truncf .bf16 w hw) (constant ⟨2, ![M, N]⟩ .f32 0x00000000#32))
        (broadcastTo ⟨2, ![M, N]⟩ (shapeCast ⟨2, ![1, N]⟩ b h1) h2) (ix2 r j)
      = (∑ k : Fin K, a (ix2 r k) * w (ix2 k j)) + b (ix1 j) := by
  rw [addf_apply, biasRows_apply]
  exact congrArg (· + b (ix1 j)) (PlainDot.matmul_zero_apply prec a (truncf .bf16 w hw) r j)

end Idealize.ShloMosaic.AffineRow

end
-- ==== Proof.Payloads.lean ====
/-
  The values the kernel's three bodies store, read at an index, over the extended reals.

  Body 0 is a dense layer with a clamp at zero, max ((x + agg) · W + b, 0), and two running column sums of it;
  body 1 is a normalisation g · (H − μ) · (v + ε)^(−1/2) + β followed by a dense layer with a clamp, and two running
  column sums of the result; body 2 is the normalisation alone. A change of float format is the identity on
  extended reals, a cast of a shape to itself is the identity, a one-row block spread over the rows reads its
  entry (0, q) at every (p, q), and a sum over the rows from the neutral accumulator is the plain sum.
-/
import Idealize.ShloMosaic.Lib.ValueIdx
import Idealize.ShloMosaic.Lib.ValueLayout
import Idealize.ShloMosaic.Lib.Pipeline.Value
import Idealize.ShloMosaic.PureOps.Ideal.Laws
import proofs.«129211_j18184891531553_1_alg».proof.Proof.Gen.KernelIdeal.Skeleton
import proofs.«129211_j18184891531553_1_alg».proof.Proof.Spec
import proofs.«129211_j18184891531553_1_alg».proof.Proof.LibPlainDot
import proofs.«129211_j18184891531553_1_alg».proof.Proof.LibColSum
import proofs.«129211_j18184891531553_1_alg».proof.Proof.LibRowSpread
import proofs.«129211_j18184891531553_1_alg».proof.Proof.LibAffineRow

noncomputable section

open scoped BigOperators

namespace Cert.KernelIdeal.Pay

open Idealize.ShloMosaic Idealize.ShloMosaic.ValueIdx Cert.KernelIdeal Cert.KernelIdeal.Gen

/-- A one-row block spread over the 10000 rows reads its entry (0, q) at every (p, q). -/
theorem spread_apply (v : Vec Ideal S1x128 .f32) (p : Fin 10000) (q : Fin 128) :
    broadcastTo S10000x128 v broadcasts_S1x128_S10000x128 (ix2 p q) = v (ix2 (0 : Fin 1) q) :=
  RowSpread.rowBcast_apply v broadcasts_S1x128_S10000x128 p q

/-- The normalisation of body 2 at (p, q). -/
theorem k2_pay1_apply (v0 : Vec Ideal S10000x128 .f32) (v2 v4 v6 v8 : Vec Ideal S1x128 .f32) (p : Fin 10000) (q : Fin 128) :
    k2_pay1 (F := Ideal) v0 v2 v4 v6 v8 (ix2 p q)
      = v6 (ix2 (0 : Fin 1) q) * (v0 (ix2 p q) - v2 (ix2 (0 : Fin 1) q)) * Ideal.rsqrt (v4 (ix2 (0 : Fin 1) q) + Cert.Spec.epsE) + v8 (ix2 (0 : Fin 1) q) := by
  unfold k2_pay1
  simp only [shapeCast_self]
  rw [addf_apply, mulf_apply, mulf_apply, subf_apply, spread_apply, spread_apply, spread_apply, spread_apply]
  rfl

/-- The dense layer with a clamp of body 0 at (p, q). -/
theorem k0_pay3_apply (v3 v4 : Vec Ideal S10000x64 .f32) (v7 : Vec Ideal S64x128 .f32) (v8 : Vec Ideal S1x128 .f32) (p : Fin 10000) (q : Fin 128) :
    k0_pay3 (F := Ideal) v3 v4 v7 v8 (ix2 p q)
      = max (∑ k : Fin 64, (v3 (ix2 p k) + v4 (ix2 p k)) * v7 (ix2 k q) + v8 (ix2 (0 : Fin 1) q)) Cert.Spec.zeroE := by
  unfold k0_pay3
  simp only [shapeCast_self]
  rw [maximumf_apply, addf_apply, spread_apply, broadcast_apply]
  refine congrArg₂ max (congrArg (· + v8 (ix2 (0 : Fin 1) q)) ?_) rfl
  exact PlainDot.matmul_zero_apply (M := 10000) (K := 64) (N := 128) none
    (truncf .bf16 (addf v3 v4) bitsLt_bf16_f32) (truncf .bf16 v7 bitsLt_bf16_f32) p q

/-- A vector of 128 numbers viewed as one row, read at (0, q), is its entry q. -/
theorem oneRow_apply (v : FVec Ideal S128 .f32) (q : Fin 128) :
    shapeCast S1x128 v shapeCasts_S128_S1x128 (ix2 (0 : Fin 1) q) = v (ix1 q) :=
  AffineRow.oneRow_apply v shapeCasts_S128_S1x128 q

/-- The sum over the 10000 rows from the neutral accumulator, viewed as one row, at (0, q). -/
theorem colSum_apply (src : FVec Ideal S10000x128 .f32) (q : Fin 128) :
    shapeCast S1x128 (multiReduction .add [0] S128 src 0x00000000#32 reduces_S10000x128_S128 (.inl rfl) rfl)
        shapeCasts_S128_S1x128 (ix2 (0 : Fin 1) q)
      = ∑ p : Fin 10000, src (ix2 p q) :=
  (oneRow_apply _ q).trans
    (ColSum.multiReduction_rows_apply (a := 10000) (b := 128) src 0x00000000#32 reduces_S10000x128_S128 (.inl rfl) rfl q)

/-- The running column sum of body 0 at (0, q). -/
theorem k0_pay4_apply (v3 v4 : Vec Ideal S10000x64 .f32) (v7 : Vec Ideal S64x128 .f32) (v8 v18 : Vec Ideal S1x128 .f32) (q : Fin 128) :
    k0_pay4 (F := Ideal) v3 v4 v7 v8 v18 (ix2 (0 : Fin 1) q)
      = v18 (ix2 (0 : Fin 1) q) + ∑ p : Fin 10000, k0_pay3 (F := Ideal) v3 v4 v7 v8 (ix2 p q) := by
  unfold k0_pay4
  simp only [shapeCast_self]
  rw [addf_apply]
  exact congrArg (v18 (ix2 (0 : Fin 1) q) + ·) (colSum_apply (k0_pay3 (F := Ideal) v3 v4 v7 v8) q)

/-- The running column sum of squares of body 0 at (0, q). -/
theorem k0_pay5_apply (v3 v4 : Vec Ideal S10000x64 .f32) (v7 : Vec Ideal S64x128 .f32) (v8 v24 : Vec Ideal S1x128 .f32) (q : Fin 128) :
    k0_pay5 (F := Ideal) v3 v4 v7 v8 v24 (ix2 (0 : Fin 1) q)
      = v24 (ix2 (0 : Fin 1) q) + ∑ p : Fin 10000, k0_pay3 (F := Ideal) v3 v4 v7 v8 (ix2 p q) * k0_pay3 (F := Ideal) v3 v4 v7 v8 (ix2 p q) := by
  unfold k0_pay5
  simp only [shapeCast_self]
  rw [addf_apply]
  exact congrArg (v24 (ix2 (0 : Fin 1) q) + ·)
    (colSum_apply (mulf (k0_pay3 (F := Ideal) v3 v4 v7 v8) (k0_pay3 (F := Ideal) v3 v4 v7 v8)) q)

/-- The normalisation g · (x − μ) · (v + ε)^(−1/2) + β as the vector operations spell it, at (p, q). -/
theorem norm_apply (x : Vec Ideal S10000x128 .f32) (mu var g be : Vec Ideal S1x128 .f32) (p : Fin 10000) (q : Fin 128) :
    addf (mulf (mulf (broadcastTo S10000x128 g broadcasts_S1x128_S10000x128)
          (subf x (broadcastTo S10000x128 mu broadcasts_S1x128_S10000x128)))
        (broadcastTo S10000x128 (rsqrt (addf var (broadcast S1x128 (Scalar.ofBits (F := Ideal) .f32 0x3727C5AC#32))))
          broadcasts_S1x128_S10000x128))
      (broadcastTo S10000x128 be broadcasts_S1x128_S10000x128) (ix2 p q)
      = g (ix2 (0 : Fin 1) q) * (x (ix2 p q) - mu (ix2 (0 : Fin 1) q))
          * Ideal.rsqrt (var (ix2 (0 : Fin 1) q) + Cert.Spec.epsE) + be (ix2 (0 : Fin 1) q) := by
  rw [addf_apply, mulf_apply, mulf_apply, subf_apply, spread_apply, spread_apply, spread_apply, spread_apply]
  rfl

/-- The normalisation followed by the dense layer with a clamp of body 1 at (p, q). -/
theorem k1_pay5_apply (v3 : Vec Ideal S10000x128 .f32) (v5 v7 v9 v11 : Vec Ideal S1x128 .f32) (v24 : Vec Ideal S128x128 .f32) (v25 : Vec Ideal S1x128 .f32) (p : Fin 10000) (q : Fin 128) :
    k1_pay5 (F := Ideal) v3 v5 v7 v9 v11 v24 v25 (ix2 p q)
      = max (∑ k : Fin 128, (v9 (ix2 (0 : Fin 1) k) * (v3 (ix2 p k) - v5 (ix2 (0 : Fin 1) k)) * Ideal.rsqrt (v7 (ix2 (0 : Fin 1) k) + Cert.Spec.epsE) + v11 (ix2 (0 : Fin 1) k)) * v24 (ix2 k q) + v25 (ix2 (0 : Fin 1) q)) Cert.Spec.zeroE := by
  unfold k1_pay5
  simp only [shapeCast_self]
  rw [maximumf_apply, addf_apply, spread_apply, broadcast_apply]
  refine congrArg₂ max (congrArg (· + v25 (ix2 (0 : Fin 1) q)) ?_) rfl
  refine (PlainDot.matmul_zero_apply (M := 10000) (K := 128) (N := 128) none _ _ p q).trans ?_
  exact Finset.sum_congr rfl fun k _ => congrArg (· * v24 (ix2 k q)) (norm_apply v3 v5 v7 v9 v11 p k)

/-- The running column sum of body 1 at (0, q). -/
theorem k1_pay1_apply (v33 : FVec Ideal S10000x128 .f32) (v35 : Vec Ideal S1x128 .f32) (q : Fin 128) :
    k1_pay1 (F := Ideal) v33 v35 (ix2 (0 : Fin 1) q) = v35 (ix2 (0 : Fin 1) q) + ∑ p : Fin 10000, v33 (ix2 p q) := by
  unfold k1_pay1
  simp only [shapeCast_self]
  rw [addf_apply]
  exact congrArg (v35 (ix2 (0 : Fin 1) q) + ·) (colSum_apply v33 q)

/-- The running column sum of squares of body 1 at (0, q). -/
theorem k1_pay2_apply (v33 : FVec Ideal S10000x128 .f32) (v41 : Vec Ideal S1x128 .f32) (q : Fin 128) :
    k1_pay2 (F := Ideal) v33 v41 (ix2 (0 : Fin 1) q) = v41 (ix2 (0 : Fin 1) q) + ∑ p : Fin 10000, v33 (ix2 p q) * v33 (ix2 p q) := by
  unfold k1_pay2
  simp only [shapeCast_self]
  rw [addf_apply]
  exact congrArg (v41 (ix2 (0 : Fin 1) q) + ·) (colSum_apply (mulf v33 v33) q)

/-- The first step's reset of a running sum: the splat of the f32 word of 0.0. -/
theorem k0_pay1_apply (q : Fin 128) : k0_pay1 (F := Ideal) (ix2 (0 : Fin 1) q) = Cert.Spec.zeroE := rfl

theorem k0_pay2_apply (q : Fin 128) : k0_pay2 (F := Ideal) (ix2 (0 : Fin 1) q) = Cert.Spec.zeroE := rfl

theorem k1_pay3_apply (q : Fin 128) : k1_pay3 (F := Ideal) (ix2 (0 : Fin 1) q) = Cert.Spec.zeroE := rfl

theorem k1_pay4_apply (q : Fin 128) : k1_pay4 (F := Ideal) (ix2 (0 : Fin 1) q) = Cert.Spec.zeroE := rfl

end Cert.KernelIdeal.Pay

end
-- ==== Proof.Pieces0.lean ====
import proofs.«129211_j18184891531553_1_alg».proof.Proof.Gen.KernelIdeal.Frame
import Idealize.ShloMosaic.Lib.Pipeline.Value
import Idealize.ShloMosaic.Lib.Tactic

noncomputable section

open scoped BigOperators

/-! What each control case of the first kernel's body leaves in its three output buffers, as the body's pure
    terms of the blocks it loaded: the clamped dense layer's block, and the two running column sums (started from
    the zero row at the first grid point, from the previous point's value afterwards). -/

namespace Cert.KernelIdeal.Val

open Cert.KernelIdeal Cert.KernelIdeal.Gen Idealize.ShloMosaic Idealize.ShloMosaic.TcCoe Idealize.SL.Sem

variable {F : FTy → Type} [FloatOps F]

theorem hz0 : (![0, 0] : Fin 2 → Nat) = fun _ => 0 := funext fun a => by fin_cases a <;> rfl

theorem out0_B_4_eq (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i)
    (x0 x1 : Vec F S10000x64 .f32) (x2 : Vec F S64x128 .f32) (x3 xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz0]
  simp only [View.readAt_eq_ld, h1.read_unread, h2.read_unread, h3.read_unread, h4.read_unread, h6.read_unread, h7.read_unread,
    View.ld_unit_zero (S := S10000x64) hz0, View.ld_unit_zero (S := S64x128) hz0, View.ld_unit_zero (S := S1x128) hz0]

theorem out0_B_5_eq (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i)
    (x0 x1 : Vec F S10000x64 .f32) (x2 : Vec F S64x128 .f32) (x3 xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz0]
  simp only [View.readAt_eq_ld, h1.read_unread, h2.read_unread, h3.read_unread, h4.read_unread, h6.read_unread, h7.read_unread,
    View.ld_unit_zero (S := S10000x64) hz0, View.ld_unit_zero (S := S64x128) hz0, View.ld_unit_zero (S := S1x128) hz0]

theorem out0_B_6_eq (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i)
    (x0 x1 : Vec F S10000x64 .f32) (x2 : Vec F S64x128 .f32) (x3 xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz0]
  simp only [View.readAt_eq_ld, h1.read_unread, h2.read_unread, h3.read_unread, h4.read_unread, h6.read_unread, h7.read_unread,
    View.ld_unit_zero (S := S10000x64) hz0, View.ld_unit_zero (S := S64x128) hz0, View.ld_unit_zero (S := S1x128) hz0]

theorem out0_A_4_eq (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i)
    (x0 x1 : Vec F S10000x64 .f32) (x2 : Vec F S64x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz0]
  simp only [View.readAt_eq_ld, h1.read_unread, h2.read_unread, h3.read_unread, h4.read_unread, h6.read_unread, h7.read_unread,
    View.ld_unit_zero (S := S10000x64) hz0, View.ld_unit_zero (S := S64x128) hz0, View.ld_unit_zero (S := S1x128) hz0]

theorem out0_A_5_eq (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i)
    (x0 x1 : Vec F S10000x64 .f32) (x2 : Vec F S64x128 .f32) (x3 : Vec F S1x128 .f32) :
    out0_A_5 c i a1 h1 a2 h2 a3 h3 a4 h4 a5 h5 a6 h6 a7 h7 hc x0 x1 x2 x3 = k0_pay4 x0 x1 x2 x3 (k0_pay1 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, h4.read_unread, h6.read_unread, h7.read_unread,
    View.ld_unit_zero (S := S10000x64) hz0, View.ld_unit_zero (S := S64x128) hz0, View.ld_unit_zero (S := S1x128) hz0]

theorem out0_A_6_eq (c : Dev nD) (i : grid0.Coords) (a1 : Memref sig .tc .vmem S10000x64 .f32) (h1 : a1.IsWhole) (a2 : Memref sig .tc .vmem S10000x64 .f32) (h2 : a2.IsWhole) (a3 : Memref sig .tc .vmem S64x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i)
    (x0 x1 : Vec F S10000x64 .f32) (x2 : Vec F S64x128 .f32) (x3 : Vec F S1x128 .f32) :
    out0_A_6 c i a1 h1 a2 h2 a3 h3 a4 h4 a5 h5 a6 h6 a7 h7 hc x0 x1 x2 x3 = k0_pay5 x0 x1 x2 x3 (k0_pay2 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, h4.read_unread, h6.read_unread, h7.read_unread,
    View.ld_unit_zero (S := S10000x64) hz0, View.ld_unit_zero (S := S64x128) hz0, View.ld_unit_zero (S := S1x128) hz0]

end Cert.KernelIdeal.Val

end
-- ==== Proof.Region0.lean ====
import proofs.«129211_j18184891531553_1_alg».proof.Proof.Gen.KernelIdeal.Frame
import proofs.«129211_j18184891531553_1_alg».proof.Proof.Spec
import proofs.«129211_j18184891531553_1_alg».proof.Proof.Arr
import proofs.«129211_j18184891531553_1_alg».proof.Proof.Pieces0
import proofs.«129211_j18184891531553_1_alg».proof.Proof.Payloads
import Idealize.ShloMosaic.Lib.Pipeline.Value
import Idealize.ShloMosaic.Lib.ValueIdx

noncomputable section

open scoped BigOperators

/-! The first kernel (a dense layer with a clamp, and the two column sums of its result accumulated over the ten
    grid points), read off its run at any contents of the buffers on entry: the result array is the layer of the
    two input matrices' sum, row by row; the two one-row arrays end at the zero word plus the sum, over all
    100000 rows, of the result's entries, resp. of their squares. -/

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (rowN arrOf rowArr zeroE)

variable (V : (c : Dev nD) → (b : Ref sig .tc) → Buf (Elt Ideal) ((c : Thread nD τ).loc b))

/-- The block index of each window at each grid point: the row tiles move with the point, the rest stay. -/
structure IdxFacts0 (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = t.val ∧ win0_4.index t (1 : Fin 2) = 0
  w5 : win0_5.index t (0 : Fin 2) = 0 ∧ win0_5.index t (1 : Fin 2) = 0
  w6 : win0_6.index t (0 : Fin 2) = 0 ∧ win0_6.index t (1 : Fin 2) = 0

theorem idx_facts0 : ∀ t : Fin cfg0.N, IdxFacts0 t := fun t =>
  have h := (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)) t
  ⟨h.1, h.2.1, h.2.2.1, h.2.2.2.1, h.2.2.2.2.1, h.2.2.2.2.2.1, h.2.2.2.2.2.2⟩

theorem emb0_0 (t : Fin cfg0.N) (p : Fin 10000) (k : Fin 64) :
    ((cfg0.win 0).blk t).view.emb (ix2 p k) = (ix2 (Cert.Spec.rowN t.val p) k : S100000x64.Idx) := by
  have hN : cfg0.N = 10 := N_0
  have ht : t.val < 10 := hN ▸ t.isLt
  have f0 : win0_0.index t (0 : Fin 2) = t.val := (idx_facts0 t).w0.1
  have f1 : win0_0.index t (1 : Fin 2) = 0 := (idx_facts0 t).w0.2
  funext a; apply Fin.ext
  match a with
  | ⟨0, _⟩ => show win0_0.index t (0 : Fin 2) * 10000 + 1 * p.val = (Cert.Spec.rowN t.val p).val; rw [f0, Cert.Spec.rowN_val _ ht]; omega
  | ⟨1, _⟩ => show win0_0.index t (1 : Fin 2) * 64 + 1 * k.val = k.val; rw [f1]; omega

theorem emb0_1 (t : Fin cfg0.N) (p : Fin 10000) (k : Fin 64) :
    ((cfg0.win 1).blk t).view.emb (ix2 p k) = (ix2 (Cert.Spec.rowN t.val p) k : S100000x64.Idx) := by
  have hN : cfg0.N = 10 := N_0
  have ht : t.val < 10 := hN ▸ t.isLt
  have f0 : win0_1.index t (0 : Fin 2) = t.val := (idx_facts0 t).w1.1
  have f1 : win0_1.index t (1 : Fin 2) = 0 := (idx_facts0 t).w1.2
  funext a; apply Fin.ext
  match a with
  | ⟨0, _⟩ => show win0_1.index t (0 : Fin 2) * 10000 + 1 * p.val = (Cert.Spec.rowN t.val p).val; rw [f0, Cert.Spec.rowN_val _ ht]; omega
  | ⟨1, _⟩ => show win0_1.index t (1 : Fin 2) * 64 + 1 * k.val = k.val; rw [f1]; omega

theorem emb0_2 (t : Fin cfg0.N) (k : Fin 64) (q : Fin 128) :
    ((cfg0.win 2).blk t).view.emb (ix2 k q) = (ix2 k q : S64x128.Idx) := by
  have f0 : win0_2.index t (0 : Fin 2) = 0 := (idx_facts0 t).w2.1
  have f1 : win0_2.index t (1 : Fin 2) = 0 := (idx_facts0 t).w2.2
  funext a; apply Fin.ext
  match a with
  | ⟨0, _⟩ => show win0_2.index t (0 : Fin 2) * 64 + 1 * k.val = k.val; rw [f0]; omega
  | ⟨1, _⟩ => show win0_2.index t (1 : Fin 2) * 128 + 1 * q.val = q.val; rw [f1]; omega

theorem emb0_3 (t : Fin cfg0.N) (k : Fin 1) (q : Fin 128) :
    ((cfg0.win 3).blk t).view.emb (ix2 k q) = (ix2 k q : S1x128.Idx) := by
  have f0 : win0_3.index t (0 : Fin 2) = 0 := (idx_facts0 t).w3.1
  have f1 : win0_3.index t (1 : Fin 2) = 0 := (idx_facts0 t).w3.2
  funext a; apply Fin.ext
  match a with
  | ⟨0, _⟩ => show win0_3.index t (0 : Fin 2) * 1 + 1 * k.val = k.val; rw [f0]; omega
  | ⟨1, _⟩ => show win0_3.index t (1 : Fin 2) * 128 + 1 * q.val = q.val; rw [f1]; omega

theorem emb0_4 (t : Fin cfg0.N) (p : Fin 10000) (k : Fin 128) :
    ((cfg0.win 4).blk t).view.emb (ix2 p k) = (ix2 (Cert.Spec.rowN t.val p) k : S100000x128.Idx) := by
  have hN : cfg0.N = 10 := N_0
  have ht : t.val < 10 := hN ▸ t.isLt
  have f0 : win0_4.index t (0 : Fin 2) = t.val := (idx_facts0 t).w4.1
  have f1 : win0_4.index t (1 : Fin 2) = 0 := (idx_facts0 t).w4.2
  funext a; apply Fin.ext
  match a with
  | ⟨0, _⟩ => show win0_4.index t (0 : Fin 2) * 10000 + 1 * p.val = (Cert.Spec.rowN t.val p).val; rw [f0, Cert.Spec.rowN_val _ ht]; omega
  | ⟨1, _⟩ => show win0_4.index t (1 : Fin 2) * 128 + 1 * k.val = k.val; rw [f1]; omega

theorem emb0_5 (t : Fin cfg0.N) (k : Fin 1) (q : Fin 128) :
    ((cfg0.win 5).blk t).view.emb (ix2 k q) = (ix2 k q : S1x128.Idx) := by
  have f0 : win0_5.index t (0 : Fin 2) = 0 := (idx_facts0 t).w5.1
  have f1 : win0_5.index t (1 : Fin 2) = 0 := (idx_facts0 t).w5.2
  funext a; apply Fin.ext
  match a with
  | ⟨0, _⟩ => show win0_5.index t (0 : Fin 2) * 1 + 1 * k.val = k.val; rw [f0]; omega
  | ⟨1, _⟩ => show win0_5.index t (1 : Fin 2) * 128 + 1 * q.val = q.val; rw [f1]; omega

theorem emb0_6 (t : Fin cfg0.N) (k : Fin 1) (q : Fin 128) :
    ((cfg0.win 6).blk t).view.emb (ix2 k q) = (ix2 k q : S1x128.Idx) := by
  have f0 : win0_6.index t (0 : Fin 2) = 0 := (idx_facts0 t).w6.1
  have f1 : win0_6.index t (1 : Fin 2) = 0 := (idx_facts0 t).w6.2
  funext a; apply Fin.ext
  match a with
  | ⟨0, _⟩ => show win0_6.index t (0 : Fin 2) * 1 + 1 * k.val = k.val; rw [f0]; omega
  | ⟨1, _⟩ => show win0_6.index t (1 : Fin 2) * 128 + 1 * q.val = q.val; rw [f1]; omega

/-- The layer's result from the four arrays the kernel reads. -/
def H0 (a0 a1 : S100000x64.Idx → EReal) (a2 : S64x128.Idx → EReal) (a3 : S1x128.Idx → EReal) : Cert.Spec.Mat 100000 128 :=
  Cert.Spec.dense (fun r k => a0 (ix2 r k) + a1 (ix2 r k)) (Cert.Spec.mat a2) (fun j => a3 (ix2 (0 : Fin 1) j))

/-- The layer's payload at (p, q) of a block whose rows are the arrays' rows r. -/
theorem pay3_pure (a0 a1 : S100000x64.Idx → EReal) (a2 : S64x128.Idx → EReal) (a3 : S1x128.Idx → EReal)
    (x0 x1 : Vec Ideal S10000x64 .f32) (x2 : Vec Ideal S64x128 .f32) (x3 : Vec Ideal S1x128 .f32)
    (r : Fin 100000) (p : Fin 10000) (q : Fin 128)
    (h0 : ∀ k : Fin 64, x0 (ix2 p k) = a0 (ix2 r k)) (h1 : ∀ k : Fin 64, x1 (ix2 p k) = a1 (ix2 r k))
    (h2 : ∀ k : Fin 64, x2 (ix2 k q) = a2 (ix2 k q)) (h3 : x3 (ix2 (0 : Fin 1) q) = a3 (ix2 (0 : Fin 1) q)) :
    k0_pay3 (F := Ideal) x0 x1 x2 x3 (ix2 p q) = H0 a0 a1 a2 a3 r q := by
  rw [Cert.KernelIdeal.Pay.k0_pay3_apply]
  unfold H0 Cert.Spec.dense Cert.Spec.mat
  simp only [h0, h1, h2, h3]

/-- The arrays region 0 reads, at the entry contents. -/
abbrev A0 (c : Dev nD) (w : Fin cfg0.W) := V c (Pipeline.arrRef spec0 w)

theorem iblk0_0 (c : Dev nD) (t : Fin cfg0.N) (p : Fin 10000) (k : Fin 64) :
    iblk0 V c 0 t (ix2 p k) = V c (Pipeline.arrRef spec0 0) (ix2 (rowN t.val p) k) := by
  unfold iblk0; rw [View.read_apply, emb0_0]; exact cast_eq _ _
theorem iblk0_1 (c : Dev nD) (t : Fin cfg0.N) (p : Fin 10000) (k : Fin 64) :
    iblk0 V c 1 t (ix2 p k) = V c (Pipeline.arrRef spec0 1) (ix2 (rowN t.val p) k) := by
  unfold iblk0; rw [View.read_apply, emb0_1]; exact cast_eq _ _
theorem iblk0_2 (c : Dev nD) (t : Fin cfg0.N) (k : Fin 64) (q : Fin 128) :
    iblk0 V c 2 t (ix2 k q) = V c (Pipeline.arrRef spec0 2) (ix2 k q) := by
  unfold iblk0; rw [View.read_apply, emb0_2]; exact cast_eq _ _
theorem iblk0_3 (c : Dev nD) (t : Fin cfg0.N) (q : Fin 128) :
    iblk0 V c 3 t (ix2 (0 : Fin 1) q) = V c (Pipeline.arrRef spec0 3) (ix2 (0 : Fin 1) q) := by
  unfold iblk0; rw [View.read_apply, emb0_3]; exact cast_eq _ _

/-- The layer's block at point t. -/
abbrev P3 (c : Dev nD) (t : Fin cfg0.N) : FVec Ideal S10000x128 .f32 :=
  k0_pay3 (F := Ideal) (iblk0 V c 0 t) (iblk0 V c 1 t) (iblk0 V c 2 t) (iblk0 V c 3 t)

/-- The result matrix of region 0 from the entry contents. -/
abbrev HV0 (c : Dev nD) : Cert.Spec.Mat 100000 128 :=
  H0 (V c (Pipeline.arrRef spec0 0)) (V c (Pipeline.arrRef spec0 1)) (V c (Pipeline.arrRef spec0 2)) (V c (Pipeline.arrRef spec0 3))

theorem P3_apply (c : Dev nD) (t : Fin cfg0.N) (p : Fin 10000) (q : Fin 128) :
    P3 V c t (ix2 p q) = HV0 V c (rowN t.val p) q :=
  pay3_pure (V c (Pipeline.arrRef spec0 0)) (V c (Pipeline.arrRef spec0 1)) (V c (Pipeline.arrRef spec0 2)) (V c (Pipeline.arrRef spec0 3))
    (iblk0 V c 0 t) (iblk0 V c 1 t) (iblk0 V c 2 t) (iblk0 V c 3 t) (rowN t.val p) p q
    (fun k => iblk0_0 V c t p k) (fun k => iblk0_1 V c t p k) (fun k => iblk0_2 V c t k q) (iblk0_3 V c t q)

/-- After every point the first output buffer holds the layer's block of that point. -/
theorem outs0_1 (c : Dev nD) (t : Fin cfg0.N) : (outsAt0 V c t.val t.isLt).1 = P3 V c t := by
  by_cases h0 : t.val % 10 = 0
  · rw [outsAt0_A V c t h0]; dsimp only; exact out0_A_4_eq ..
  · rw [outsAt0_B V c t h0]; dsimp only; exact out0_B_4_eq ..

/-- The running column sum after point n: the zero word plus the tiles 0 … n. -/
def run5 (c : Dev nD) (n : ℕ) : Vec Ideal S1x128 .f32 :=
  rowArr fun q => zeroE + ∑ s ∈ Finset.range (n + 1), ∑ p : Fin 10000, HV0 V c (rowN s p) q
/-- The running column sum of squares after point n. -/
def run6 (c : Dev nD) (n : ℕ) : Vec Ideal S1x128 .f32 :=
  rowArr fun q => zeroE + ∑ s ∈ Finset.range (n + 1), ∑ p : Fin 10000, HV0 V c (rowN s p) q * HV0 V c (rowN s p) q

theorem ext_row {α : Type} {f g : (⟨2, ![1, 128]⟩ : Shape).Idx → α} (h : ∀ q : Fin 128, f (ix2 (0 : Fin 1) q) = g (ix2 (0 : Fin 1) q)) : f = g :=
  funext fun j => by
    have hj : j = ix2 (0 : Fin 1) (j 1) := funext fun a => by
      match a with
      | ⟨0, _⟩ => exact Fin.ext (by have h1 : (j 0).val < 1 := (j 0).isLt; show (j 0).val = 0; omega)
      | ⟨1, _⟩ => rfl
    rw [hj]; exact h _

theorem pay4_step (c : Dev nD) (t : Fin cfg0.N) (acc : Vec Ideal S1x128 .f32) (q : Fin 128) :
    k0_pay4 (F := Ideal) (iblk0 V c 0 t) (iblk0 V c 1 t) (iblk0 V c 2 t) (iblk0 V c 3 t) acc (ix2 (0 : Fin 1) q)
      = acc (ix2 (0 : Fin 1) q) + ∑ p : Fin 10000, HV0 V c (rowN t.val p) q := by
  rw [Cert.KernelIdeal.Pay.k0_pay4_apply]
  exact congrArg _ (Finset.sum_congr rfl fun p _ => P3_apply V c t p q)

theorem pay5_step (c : Dev nD) (t : Fin cfg0.N) (acc : Vec Ideal S1x128 .f32) (q : Fin 128) :
    k0_pay5 (F := Ideal) (iblk0 V c 0 t) (iblk0 V c 1 t) (iblk0 V c 2 t) (iblk0 V c 3 t) acc (ix2 (0 : Fin 1) q)
      = acc (ix2 (0 : Fin 1) q) + ∑ p : Fin 10000, HV0 V c (rowN t.val p) q * HV0 V c (rowN t.val p) q := by
  rw [Cert.KernelIdeal.Pay.k0_pay5_apply]
  exact congrArg _ (Finset.sum_congr rfl fun p _ => by rw [show k0_pay3 (F := Ideal) (iblk0 V c 0 t) (iblk0 V c 1 t) (iblk0 V c 2 t) (iblk0 V c 3 t) (ix2 p q) = HV0 V c (rowN t.val p) q from P3_apply V c t p q])

/-- The two accumulators after every point are the running sums. -/
theorem outs0_acc (c : Dev nD) : ∀ (n : ℕ) (h : n < cfg0.N),
    (outsAt0 V c n h).2.1 = run5 V c n ∧ (outsAt0 V c n h).2.2 = run6 V c n
  | 0, h => by
    rw [outsAt0_A V c ⟨0, h⟩ rfl]; dsimp only
    rw [out0_A_5_eq, out0_A_6_eq]
    constructor
    · refine ext_row fun q => ?_
      rw [pay4_step V c ⟨0, h⟩, Cert.KernelIdeal.Pay.k0_pay1_apply]
      show _ = zeroE + ∑ s ∈ Finset.range (0 + 1), _
      rw [Finset.sum_range_one]
    · refine ext_row fun q => ?_
      rw [pay5_step V c ⟨0, h⟩, Cert.KernelIdeal.Pay.k0_pay2_apply]
      show _ = zeroE + ∑ s ∈ Finset.range (0 + 1), _
      rw [Finset.sum_range_one]
  | n + 1, h => by
    have hN : cfg0.N = 10 := N_0
    have hB : ¬(⟨n + 1, h⟩ : Fin cfg0.N).val % 10 = 0 := by dsimp only; omega
    obtain ⟨ih5, ih6⟩ := outs0_acc c n (Nat.lt_of_succ_lt h)
    rw [outsAt0_B V c ⟨n + 1, h⟩ hB]; dsimp only
    rw [out0_B_5_eq, out0_B_6_eq]
    constructor
    · refine ext_row fun q => ?_
      rw [pay4_step V c ⟨n + 1, h⟩]
      show (outsAt0 V c n _).2.1 _ + _ = zeroE + ∑ s ∈ Finset.range (n + 1 + 1), _
      rw [ih5, Finset.sum_range_succ _ (n + 1), ← add_assoc]; rfl
    · refine ext_row fun q => ?_
      rw [pay5_step V c ⟨n + 1, h⟩]
      show (outsAt0 V c n _).2.2 _ + _ = zeroE + ∑ s ∈ Finset.range (n + 1 + 1), _
      rw [ih6, Finset.sum_range_succ _ (n + 1), ← add_assoc]; rfl

theorem row_idx (j : (⟨2, ![1, 128]⟩ : Shape).Idx) : j = ix2 (0 : Fin 1) (j 1) := funext fun a => by
  match a with
  | ⟨0, _⟩ => exact Fin.ext (by have h1 : (j 0).val < 1 := (j 0).isLt; show (j 0).val = 0; omega)
  | ⟨1, _⟩ => rfl

theorem flush4_elem (c : Dev nD) (t : Fin cfg0.N) (p : Fin 10000) (q : Fin 128) :
    P3 V c t (ix2 p q) = arrOf (HV0 V c) (((cfg0.win 4).blk t).view.emb (ix2 p q)) := by
  rw [P3_apply, emb0_4]; rfl

/-- What point t writes back through the first output window is block t of the layer's result. -/
theorem flushed0_4 (c : Dev nD) (t : Fin cfg0.N) :
    (dat0 V c).flushed 4 t = ((cfg0.win 4).blk t).view.read (Elt Ideal) (arrOf (HV0 V c)) := by
  show (cfg0.win 4).cut (grid0.coords t) ((dat0 V c).after 4 t) = _
  rw [after0_4, outs0_1]
  funext j
  show P3 V c t j = arrOf (HV0 V c) (((cfg0.win 4).blk t).view.emb j)
  rw [show j = ix2 (j 0) (j 1) from eq_ix2 j]
  exact flush4_elem V c t (j 0) (j 1)

theorem mem_blk0_4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v20_0).slice (win0_4.rect t)).set ↔ _
  rw [View.set_slice_whole, Rect.mem_set_unit]
  exact Iff.rfl

theorem cover0_4' (i : S100000x128.Idx) : ∃ t : Fin cfg0.N, (cfg0.win 4).flush t = true ∧ i ∈ ((cfg0.win 4).blk t).view.set := by
  have hN : cfg0.N = 10 := N_0
  have hi0 : (i 0).val < 100000 := (i 0).isLt
  have hi1 : (i 1).val < 128 := (i 1).isLt
  refine ⟨⟨(i 0).val / 10000, by rw [hN]; omega⟩, flush0_4 _, ?_⟩
  rw [mem_blk0_4]
  obtain ⟨f0, f1⟩ := (idx_facts0 ⟨(i 0).val / 10000, by rw [hN]; omega⟩).w4
  intro a
  match a with
  | ⟨0, _⟩ => show win0_4.index _ (0 : Fin 2) * 10000 ≤ (i 0).val ∧ (i 0).val < win0_4.index _ (0 : Fin 2) * 10000 + 10000; rw [f0]; dsimp only; omega
  | ⟨1, _⟩ => show win0_4.index _ (1 : Fin 2) * 128 ≤ (i 1).val ∧ (i 1).val < win0_4.index _ (1 : Fin 2) * 128 + 128; rw [f1]; omega

/-- THE RESULT ARRAY of region 0: the layer of the two input matrices' sum. -/
theorem final0_4 (c : Dev nD) : (dat0 V c).arrAt 4 cfg0.N = arrOf (HV0 V c) :=
  (dat0 V c).arrAt_eq_of_cover 4 _ (fun t _ => flushed0_4 V c t) cover0_4'

theorem run5_last (c : Dev nD) : run5 V c 9 = rowArr fun q => zeroE + Cert.Spec.colSum (HV0 V c) q := by
  unfold run5 Cert.Spec.colSum
  refine congrArg rowArr (funext fun q => congrArg (zeroE + ·) ?_)
  exact Cert.Spec.sum_tiles fun r => HV0 V c r q

theorem run6_last (c : Dev nD) : run6 V c 9 = rowArr fun q => zeroE + Cert.Spec.colSumSq (HV0 V c) q := by
  unfold run6 Cert.Spec.colSumSq
  refine congrArg rowArr (funext fun q => congrArg (zeroE + ·) ?_)
  exact Cert.Spec.sum_tiles fun r => HV0 V c r q * HV0 V c r q

theorem flush5_elem (c : Dev nD) (t : Fin cfg0.N) (h9 : t.val = 9) (q : Fin 128) :
    run5 V c t.val (ix2 (0 : Fin 1) q)
      = rowArr (fun q => zeroE + Cert.Spec.colSum (HV0 V c) q) (((cfg0.win 5).blk t).view.emb (ix2 (0 : Fin 1) q)) := by
  rw [emb0_5, h9, run5_last]
theorem flush6_elem (c : Dev nD) (t : Fin cfg0.N) (h9 : t.val = 9) (q : Fin 128) :
    run6 V c t.val (ix2 (0 : Fin 1) q)
      = rowArr (fun q => zeroE + Cert.Spec.colSumSq (HV0 V c) q) (((cfg0.win 6).blk t).view.emb (ix2 (0 : Fin 1) q)) := by
  rw [emb0_6, h9, run6_last]

theorem flushed0_5 (c : Dev nD) (t : Fin cfg0.N) (hf : (cfg0.win 5).flush t = true) :
    (dat0 V c).flushed 5 t = ((cfg0.win 5).blk t).view.read (Elt Ideal) (rowArr fun q => zeroE + Cert.Spec.colSum (HV0 V c) q) := by
  have hN : cfg0.N = 10 := N_0
  have h9 : t.val = 9 := by have := (flush0_5 t).mp hf; have := t.isLt; omega
  show (cfg0.win 5).cut (grid0.coords t) ((dat0 V c).after 5 t) = _
  rw [after0_5, (outs0_acc V c t.val t.isLt).1]
  funext j
  show run5 V c t.val j = rowArr (fun q => zeroE + Cert.Spec.colSum (HV0 V c) q) (((cfg0.win 5).blk t).view.emb j)
  rw [show j = ix2 (0 : Fin 1) (j 1) from row_idx j]
  exact flush5_elem V c t h9 (j 1)

theorem flushed0_6 (c : Dev nD) (t : Fin cfg0.N) (hf : (cfg0.win 6).flush t = true) :
    (dat0 V c).flushed 6 t = ((cfg0.win 6).blk t).view.read (Elt Ideal) (rowArr fun q => zeroE + Cert.Spec.colSumSq (HV0 V c) q) := by
  have hN : cfg0.N = 10 := N_0
  have h9 : t.val = 9 := by have := (flush0_6 t).mp hf; have := t.isLt; omega
  show (cfg0.win 6).cut (grid0.coords t) ((dat0 V c).after 6 t) = _
  rw [after0_6, (outs0_acc V c t.val t.isLt).2]
  funext j
  show run6 V c t.val j = rowArr (fun q => zeroE + Cert.Spec.colSumSq (HV0 V c) q) (((cfg0.win 6).blk t).view.emb j)
  rw [show j = ix2 (0 : Fin 1) (j 1) from row_idx j]
  exact flush6_elem V c t h9 (j 1)

theorem mem_blk0_5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v20_1).slice (win0_5.rect t)).set ↔ _
  rw [View.set_slice_whole, Rect.mem_set_unit]
  exact Iff.rfl
theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v20_2).slice (win0_6.rect t)).set ↔ _
  rw [View.set_slice_whole, Rect.mem_set_unit]
  exact Iff.rfl

theorem cover0_5' (i : S1x128.Idx) : ∃ t : Fin cfg0.N, (cfg0.win 5).flush t = true ∧ i ∈ ((cfg0.win 5).blk t).view.set := by
  have hN : cfg0.N = 10 := N_0
  have hi0 : (i 0).val < 1 := (i 0).isLt
  have hi1 : (i 1).val < 128 := (i 1).isLt
  refine ⟨⟨9, by rw [hN]; omega⟩, (flush0_5 _).mpr rfl, ?_⟩
  rw [mem_blk0_5]
  obtain ⟨f0, f1⟩ := (idx_facts0 ⟨9, by rw [hN]; omega⟩).w5
  intro a
  match a with
  | ⟨0, _⟩ => show win0_5.index _ (0 : Fin 2) * 1 ≤ (i 0).val ∧ (i 0).val < win0_5.index _ (0 : Fin 2) * 1 + 1; rw [f0]; omega
  | ⟨1, _⟩ => show win0_5.index _ (1 : Fin 2) * 128 ≤ (i 1).val ∧ (i 1).val < win0_5.index _ (1 : Fin 2) * 128 + 128; rw [f1]; omega
theorem cover0_6' (i : S1x128.Idx) : ∃ t : Fin cfg0.N, (cfg0.win 6).flush t = true ∧ i ∈ ((cfg0.win 6).blk t).view.set := by
  have hN : cfg0.N = 10 := N_0
  have hi0 : (i 0).val < 1 := (i 0).isLt
  have hi1 : (i 1).val < 128 := (i 1).isLt
  refine ⟨⟨9, by rw [hN]; omega⟩, (flush0_6 _).mpr rfl, ?_⟩
  rw [mem_blk0_6]
  obtain ⟨f0, f1⟩ := (idx_facts0 ⟨9, by rw [hN]; omega⟩).w6
  intro a
  match a with
  | ⟨0, _⟩ => show win0_6.index _ (0 : Fin 2) * 1 ≤ (i 0).val ∧ (i 0).val < win0_6.index _ (0 : Fin 2) * 1 + 1; rw [f0]; omega
  | ⟨1, _⟩ => show win0_6.index _ (1 : Fin 2) * 128 ≤ (i 1).val ∧ (i 1).val < win0_6.index _ (1 : Fin 2) * 128 + 128; rw [f1]; omega

/-- THE COLUMN SUMS of region 0's result: the zero word plus the sum over all rows. -/
theorem final0_5 (c : Dev nD) : (dat0 V c).arrAt 5 cfg0.N = rowArr fun q => zeroE + Cert.Spec.colSum (HV0 V c) q :=
  (dat0 V c).arrAt_eq_of_cover 5 _ (flushed0_5 V c) cover0_5'
/-- THE COLUMN SUMS OF SQUARES of region 0's result. -/
theorem final0_6 (c : Dev nD) : (dat0 V c).arrAt 6 cfg0.N = rowArr fun q => zeroE + Cert.Spec.colSumSq (HV0 V c) q :=
  (dat0 V c).arrAt_eq_of_cover 6 _ (flushed0_6 V c) cover0_6'

end Cert.KernelIdeal.Val

end
-- ==== Proof.Region2.lean ====
import proofs.«129211_j18184891531553_1_alg».proof.Proof.Gen.KernelIdeal.Frame
import proofs.«129211_j18184891531553_1_alg».proof.Proof.Spec
import proofs.«129211_j18184891531553_1_alg».proof.Proof.Payloads
import Idealize.ShloMosaic.Lib.Pipeline.Value
import Idealize.ShloMosaic.Lib.ValueIdx

noncomputable section

open scoped BigOperators

/-! The third kernel (the second normalisation), read off its run at any contents of the buffers on entry: the result
    array is g · (H − μ) · (v + ε)^(−1/2) + β entry by entry, H the matrix and μ, v, g, β the four one-row arrays it reads. -/

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What region 2 leaves in its output array, from the arrays it reads. -/
def G2 (a0 : S100000x128.Idx → EReal) (a1 a2 a3 a4 : S1x128.Idx → EReal) : S100000x128.Idx → EReal :=
  fun i => a3 (ix2 (0 : Fin 1) ⟨(i 1).val, (i 1).isLt⟩) * (a0 i - a1 (ix2 (0 : Fin 1) ⟨(i 1).val, (i 1).isLt⟩))
    * Ideal.rsqrt (a2 (ix2 (0 : Fin 1) ⟨(i 1).val, (i 1).isLt⟩) + Cert.Spec.epsE) + a4 (ix2 (0 : Fin 1) ⟨(i 1).val, (i 1).isLt⟩)

theorem emb5_col (t : Fin cfg2.N) (p : Fin 10000) (q : Fin 128) :
    ((((cfg2.win 5).blk t).view.emb (ix2 p q)) 1).val = q.val := by
  show win2_5.index t (1 : Fin 2) * 128 + 1 * q.val = q.val
  rw [(idx_facts2 t).2.2.2.2.2.2.2.2.2.2.2]; omega

theorem emb5_row (t : Fin cfg2.N) (p : Fin 10000) (q : Fin 128) :
    ((((cfg2.win 5).blk t).view.emb (ix2 p q)) 0).val = 10000 * t.val + p.val := by
  show win2_5.index t (0 : Fin 2) * 10000 + 1 * p.val = 10000 * t.val + p.val
  rw [(idx_facts2 t).2.2.2.2.2.2.2.2.2.2.1]; omega

theorem emb0_eq (t : Fin cfg2.N) (p : Fin 10000) (q : Fin 128) :
    ((cfg2.win 0).blk t).view.emb (ix2 p q) = ((cfg2.win 5).blk t).view.emb (ix2 p q) := by
  obtain ⟨f0, f1, -, -, -, -, -, -, -, -, f10, f11⟩ := idx_facts2 t
  funext a; apply Fin.ext
  match a with
  | ⟨0, _⟩ => show win2_0.index t (0 : Fin 2) * 10000 + 1 * p.val = win2_5.index t (0 : Fin 2) * 10000 + 1 * p.val; rw [f0, f10]
  | ⟨1, _⟩ => show win2_0.index t (1 : Fin 2) * 128 + 1 * q.val = win2_5.index t (1 : Fin 2) * 128 + 1 * q.val; rw [f1, f11]

theorem emb1_eq (t : Fin cfg2.N) (q : Fin 128) (i : S100000x128.Idx) (hi : (i 1).val = q.val) :
    ((cfg2.win 1).blk t).view.emb (ix2 (0 : Fin 1) q) = ix2 (0 : Fin 1) (⟨(i 1).val, (i 1).isLt⟩ : Fin 128) := by
  obtain ⟨-, -, f0, f1, -⟩ := idx_facts2 t
  funext a; apply Fin.ext
  match a with
  | ⟨0, _⟩ => show win2_1.index t (0 : Fin 2) * 1 + 1 * 0 = 0; rw [f0]
  | ⟨1, _⟩ => show win2_1.index t (1 : Fin 2) * 128 + 1 * q.val = (i 1).val; rw [f1, hi]; omega
theorem emb2_eq (t : Fin cfg2.N) (q : Fin 128) (i : S100000x128.Idx) (hi : (i 1).val = q.val) :
    ((cfg2.win 2).blk t).view.emb (ix2 (0 : Fin 1) q) = ix2 (0 : Fin 1) (⟨(i 1).val, (i 1).isLt⟩ : Fin 128) := by
  obtain ⟨-, -, -, -, f0, f1, -⟩ := idx_facts2 t
  funext a; apply Fin.ext
  match a with
  | ⟨0, _⟩ => show win2_2.index t (0 : Fin 2) * 1 + 1 * 0 = 0; rw [f0]
  | ⟨1, _⟩ => show win2_2.index t (1 : Fin 2) * 128 + 1 * q.val = (i 1).val; rw [f1, hi]; omega
theorem emb3_eq (t : Fin cfg2.N) (q : Fin 128) (i : S100000x128.Idx) (hi : (i 1).val = q.val) :
    ((cfg2.win 3).blk t).view.emb (ix2 (0 : Fin 1) q) = ix2 (0 : Fin 1) (⟨(i 1).val, (i 1).isLt⟩ : Fin 128) := by
  obtain ⟨-, -, -, -, -, -, f0, f1, -⟩ := idx_facts2 t
  funext a; apply Fin.ext
  match a with
  | ⟨0, _⟩ => show win2_3.index t (0 : Fin 2) * 1 + 1 * 0 = 0; rw [f0]
  | ⟨1, _⟩ => show win2_3.index t (1 : Fin 2) * 128 + 1 * q.val = (i 1).val; rw [f1, hi]; omega
theorem emb4_eq (t : Fin cfg2.N) (q : Fin 128) (i : S100000x128.Idx) (hi : (i 1).val = q.val) :
    ((cfg2.win 4).blk t).view.emb (ix2 (0 : Fin 1) q) = ix2 (0 : Fin 1) (⟨(i 1).val, (i 1).isLt⟩ : Fin 128) := by
  obtain ⟨-, -, -, -, -, -, -, -, f0, f1, -⟩ := idx_facts2 t
  funext a; apply Fin.ext
  match a with
  | ⟨0, _⟩ => show win2_4.index t (0 : Fin 2) * 1 + 1 * 0 = 0; rw [f0]
  | ⟨1, _⟩ => show win2_4.index t (1 : Fin 2) * 128 + 1 * q.val = (i 1).val; rw [f1, hi]; omega

/-- The normalisation's payload at (p, q) of a block, from blocks whose entries are the arrays' entries at an array
    index i with column q. -/
theorem elem2_pure (a0 : S100000x128.Idx → EReal) (a1 a2 a3 a4 : S1x128.Idx → EReal)
    (x0 : Vec Ideal S10000x128 .f32) (x1 x2 x3 x4 : Vec Ideal S1x128 .f32) (p : Fin 10000) (q : Fin 128)
    (i : S100000x128.Idx)
    (h0 : x0 (ix2 p q) = a0 i)
    (h1 : x1 (ix2 (0 : Fin 1) q) = a1 (ix2 (0 : Fin 1) (⟨(i 1).val, (i 1).isLt⟩ : Fin 128)))
    (h2 : x2 (ix2 (0 : Fin 1) q) = a2 (ix2 (0 : Fin 1) (⟨(i 1).val, (i 1).isLt⟩ : Fin 128)))
    (h3 : x3 (ix2 (0 : Fin 1) q) = a3 (ix2 (0 : Fin 1) (⟨(i 1).val, (i 1).isLt⟩ : Fin 128)))
    (h4 : x4 (ix2 (0 : Fin 1) q) = a4 (ix2 (0 : Fin 1) (⟨(i 1).val, (i 1).isLt⟩ : Fin 128))) :
    k2_pay1 (F := Ideal) x0 x1 x2 x3 x4 (ix2 p q) = G2 a0 a1 a2 a3 a4 i := by
  rw [Cert.KernelIdeal.Pay.k2_pay1_apply, h0, h1, h2, h3, h4]
  rfl

theorem elem2 (c : Dev nD) (t : Fin cfg2.N) (p : Fin 10000) (q : Fin 128) :
    k2_pay1 (F := Ideal) (iblk2 V c 0 t) (iblk2 V c 1 t) (iblk2 V c 2 t) (iblk2 V c 3 t) (iblk2 V c 4 t) (ix2 p q)
      = G2 (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb (ix2 p q)) :=
  elem2_pure (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) p q
    (((cfg2.win 5).blk t).view.emb (ix2 p q))
    (by unfold iblk2; rw [View.read_apply, emb0_eq]; exact cast_eq _ _)
    (by unfold iblk2; rw [View.read_apply, emb1_eq t q _ (emb5_col t p q)]; exact cast_eq _ _)
    (by unfold iblk2; rw [View.read_apply, emb2_eq t q _ (emb5_col t p q)]; exact cast_eq _ _)
    (by unfold iblk2; rw [View.read_apply, emb3_eq t q _ (emb5_col t p q)]; exact cast_eq _ _)
    (by unfold iblk2; rw [View.read_apply, emb4_eq t q _ (emb5_col t p q)]; exact cast_eq _ _)

theorem flushed2 (c : Dev nD) (t : Fin cfg2.N) :
    (dat2 V c).flushed 5 t = ((cfg2.win 5).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S10000x128) hz2, View.ld_unit_zero (S := S1x128) hz2]
  funext j
  show k2_pay1 (F := Ideal) (iblk2 V c 0 t) (iblk2 V c 1 t) (iblk2 V c 2 t) (iblk2 V c 3 t) (iblk2 V c 4 t) j
    = G2 (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb j)
  rw [show j = ix2 (j 0) (j 1) from eq_ix2 j]
  exact elem2 V c t (j 0) (j 1)

theorem mem_blk2 (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v34).slice (win2_5.rect t)).set ↔ _
  rw [View.set_slice_whole, Rect.mem_set_unit]
  exact Iff.rfl

theorem cover2 (i : S100000x128.Idx) : ∃ t : Fin cfg2.N, (cfg2.win 5).flush t = true ∧ i ∈ ((cfg2.win 5).blk t).view.set := by
  have hN : cfg2.N = 10 := N_2
  have hi0 : (i 0).val < 100000 := (i 0).isLt
  have hi1 : (i 1).val < 128 := (i 1).isLt
  refine ⟨⟨(i 0).val / 10000, by rw [hN]; omega⟩, flush2_5 _, ?_⟩
  rw [mem_blk2]
  obtain ⟨-, -, -, -, -, -, -, -, -, -, f10, f11⟩ := idx_facts2 ⟨(i 0).val / 10000, by rw [hN]; omega⟩
  intro a
  match a with
  | ⟨0, _⟩ => show win2_5.index _ (0 : Fin 2) * 10000 ≤ (i 0).val ∧ (i 0).val < win2_5.index _ (0 : Fin 2) * 10000 + 10000; rw [f10]; dsimp only; omega
  | ⟨1, _⟩ => show win2_5.index _ (1 : Fin 2) * 128 ≤ (i 1).val ∧ (i 1).val < win2_5.index _ (1 : Fin 2) * 128 + 128; rw [f11]; omega

/-- Region 2's output array after the region. -/
theorem final2 (c : Dev nD) : (dat2 V c).arrAt 5 cfg2.N
    = G2 (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed2 V c t) cover2

end Cert.KernelIdeal.Val

end
-- ==== Proof.Pieces1.lean ====
import proofs.«129211_j18184891531553_1_alg».proof.Proof.Gen.KernelIdeal.Frame
import Idealize.ShloMosaic.Lib.Pipeline.Value
import Idealize.ShloMosaic.Lib.Tactic

noncomputable section

open scoped BigOperators

/-! What each control case of the second kernel's body leaves in its three output buffers, as the body's pure
    terms of the blocks it loaded: the block of the normalised, dense, clamped layer, and the two running column
    sums of that block (started from the zero row at the first grid point). -/

namespace Cert.KernelIdeal.Val

open Cert.KernelIdeal Cert.KernelIdeal.Gen Idealize.ShloMosaic Idealize.ShloMosaic.TcCoe Idealize.SL.Sem

variable {F : FTy → Type} [FloatOps F]

theorem hz1 : (![0, 0] : Fin 2 → Nat) = fun _ => 0 := funext fun a => by fin_cases a <;> rfl

theorem out1_B_7_eq (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S10000x128 .f32) (x1 x2 x3 x4 : Vec F S1x128 .f32) (x5 : Vec F S128x128 .f32) (x6 : Vec F S1x128 .f32) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = (k1_pay5 x0 x1 x2 x3 x4 x5 x6) := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  try sl_unfold_words
  rw [View.canon_unit_zero hz1]
  simp only [View.readAt_eq_ld, h1.read_unread, h2.read_unread, h3.read_unread, h4.read_unread, h5.read_unread, h6.read_unread, h7.read_unread, h9.read_unread, h10.read_unread,
    View.ld_unit_zero (S := S10000x128) hz1, View.ld_unit_zero (S := S128x128) hz1, View.ld_unit_zero (S := S1x128) hz1]

theorem out1_B_8_eq (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S10000x128 .f32) (x1 x2 x3 x4 : Vec F S1x128 .f32) (x5 : Vec F S128x128 .f32) (x6 : Vec F S1x128 .f32) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x1 x2 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  try sl_unfold_words
  rw [View.canon_unit_zero hz1]
  simp only [View.readAt_eq_ld, h1.read_unread, h2.read_unread, h3.read_unread, h4.read_unread, h5.read_unread, h6.read_unread, h7.read_unread, h9.read_unread, h10.read_unread,
    View.ld_unit_zero (S := S10000x128) hz1, View.ld_unit_zero (S := S128x128) hz1, View.ld_unit_zero (S := S1x128) hz1]

theorem out1_B_9_eq (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S10000x128 .f32) (x1 x2 x3 x4 : Vec F S1x128 .f32) (x5 : Vec F S128x128 .f32) (x6 : Vec F S1x128 .f32) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  try sl_unfold_words
  rw [View.canon_unit_zero hz1]
  simp only [View.readAt_eq_ld, h1.read_unread, h2.read_unread, h3.read_unread, h4.read_unread, h5.read_unread, h6.read_unread, h7.read_unread, h9.read_unread, h10.read_unread,
    View.ld_unit_zero (S := S10000x128) hz1, View.ld_unit_zero (S := S128x128) hz1, View.ld_unit_zero (S := S1x128) hz1]

theorem out1_A_7_eq (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S10000x128 .f32) (x1 x2 x3 x4 : Vec F S1x128 .f32) (x5 : Vec F S128x128 .f32) (x6 : Vec F S1x128 .f32) :
    out1_A_7 c i a1 h1 a2 h2 a3 h3 a4 h4 a5 h5 a6 h6 a7 h7 a8 h8 a9 h9 a10 h10 hc x0 x1 x2 x3 x4 x5 x6 = (k1_pay5 x0 x1 x2 x3 x4 x5 x6) := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  try sl_unfold_words
  rw [View.canon_unit_zero hz1]
  simp only [View.readAt_eq_ld, h1.read_unread, h2.read_unread, h3.read_unread, h4.read_unread, h5.read_unread, h6.read_unread, h7.read_unread, h9.read_unread, h10.read_unread,
    View.ld_unit_zero (S := S10000x128) hz1, View.ld_unit_zero (S := S128x128) hz1, View.ld_unit_zero (S := S1x128) hz1]

theorem out1_A_8_eq (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S10000x128 .f32) (x1 x2 x3 x4 : Vec F S1x128 .f32) (x5 : Vec F S128x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay1 (k1_pay5 x0 x1 x2 x3 x4 x5 x6) (k1_pay3 (F := F)) := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz1, View.readCov_unit_zero (S := S1x128) _ hz1]
  simp only [View.readAt_eq_ld, h1.read_unread, h2.read_unread, h3.read_unread, h4.read_unread, h5.read_unread, h6.read_unread, h7.read_unread, h9.read_unread, h10.read_unread,
    View.ld_unit_zero (S := S10000x128) hz1, View.ld_unit_zero (S := S128x128) hz1, View.ld_unit_zero (S := S1x128) hz1]

theorem out1_A_9_eq (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S10000x128 .f32) (x1 x2 x3 x4 : Vec F S1x128 .f32) (x5 : Vec F S128x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay2 (k1_pay5 x0 x1 x2 x3 x4 x5 x6) (k1_pay4 (F := F)) := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz1, View.readCov_unit_zero (S := S1x128) _ hz1]
  simp only [View.readAt_eq_ld, h1.read_unread, h2.read_unread, h3.read_unread, h4.read_unread, h5.read_unread, h6.read_unread, h7.read_unread, h9.read_unread, h10.read_unread,
    View.ld_unit_zero (S := S10000x128) hz1, View.ld_unit_zero (S := S128x128) hz1, View.ld_unit_zero (S := S1x128) hz1]

end Cert.KernelIdeal.Val

end
-- ==== Proof.Region1.lean ====
import proofs.«129211_j18184891531553_1_alg».proof.Proof.Gen.KernelIdeal.Frame
import proofs.«129211_j18184891531553_1_alg».proof.Proof.Spec
import proofs.«129211_j18184891531553_1_alg».proof.Proof.Arr
import proofs.«129211_j18184891531553_1_alg».proof.Proof.Pieces1
import proofs.«129211_j18184891531553_1_alg».proof.Proof.Payloads
import Idealize.ShloMosaic.Lib.Pipeline.Value
import Idealize.ShloMosaic.Lib.ValueIdx

noncomputable section

open scoped BigOperators

/-! The second kernel (a normalisation with given column statistics, then a dense layer with a clamp, and the two
    column sums of its result accumulated over the ten grid points), read off its run at any contents of the
    buffers on entry: the result array is the layer of the normalised input matrix, row by row; the two one-row
    arrays end at the zero word plus the sum, over all 100000 rows, of the result's entries, resp. of their
    squares. -/

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (rowN arrOf rowArr zeroE)

variable (V : (c : Dev nD) → (b : Ref sig .tc) → Buf (Elt Ideal) ((c : Thread nD τ).loc b))

/-- The block index of each window at each grid point: the row tiles move with the point, the rest stay. -/
structure IdxFacts1 (t : Fin cfg1.N) : Prop where
  w0 : win1_0.index t (0 : Fin 2) = t.val ∧ win1_0.index t (1 : Fin 2) = 0
  w1 : win1_1.index t (0 : Fin 2) = 0 ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = 0 ∧ win1_6.index t (1 : Fin 2) = 0
  w7 : win1_7.index t (0 : Fin 2) = t.val ∧ win1_7.index t (1 : Fin 2) = 0
  w8 : win1_8.index t (0 : Fin 2) = 0 ∧ win1_8.index t (1 : Fin 2) = 0
  w9 : win1_9.index t (0 : Fin 2) = 0 ∧ win1_9.index t (1 : Fin 2) = 0

theorem idx_facts1 : ∀ t : Fin cfg1.N, IdxFacts1 t := fun t =>
  have h := (by decide +kernel : ∀ t : Fin grid1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)) t
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩

theorem emb1_0 (t : Fin cfg1.N) (p : Fin 10000) (k : Fin 128) :
    ((cfg1.win 0).blk t).view.emb (ix2 p k) = (ix2 (Cert.Spec.rowN t.val p) k : S100000x128.Idx) := by
  have hN : cfg1.N = 10 := N_1
  have ht : t.val < 10 := hN ▸ t.isLt
  have f0 : win1_0.index t (0 : Fin 2) = t.val := (idx_facts1 t).w0.1
  have f1 : win1_0.index t (1 : Fin 2) = 0 := (idx_facts1 t).w0.2
  funext a; apply Fin.ext
  match a with
  | ⟨0, _⟩ => show win1_0.index t (0 : Fin 2) * 10000 + 1 * p.val = (Cert.Spec.rowN t.val p).val; rw [f0, Cert.Spec.rowN_val _ ht]; omega
  | ⟨1, _⟩ => show win1_0.index t (1 : Fin 2) * 128 + 1 * k.val = k.val; rw [f1]; omega

theorem emb1_1 (t : Fin cfg1.N) (k : Fin 1) (q : Fin 128) :
    ((cfg1.win 1).blk t).view.emb (ix2 k q) = (ix2 k q : S1x128.Idx) := by
  have f0 : win1_1.index t (0 : Fin 2) = 0 := (idx_facts1 t).w1.1
  have f1 : win1_1.index t (1 : Fin 2) = 0 := (idx_facts1 t).w1.2
  funext a; apply Fin.ext
  match a with
  | ⟨0, _⟩ => show win1_1.index t (0 : Fin 2) * 1 + 1 * k.val = k.val; rw [f0]; omega
  | ⟨1, _⟩ => show win1_1.index t (1 : Fin 2) * 128 + 1 * q.val = q.val; rw [f1]; omega

theorem emb1_2 (t : Fin cfg1.N) (k : Fin 1) (q : Fin 128) :
    ((cfg1.win 2).blk t).view.emb (ix2 k q) = (ix2 k q : S1x128.Idx) := by
  have f0 : win1_2.index t (0 : Fin 2) = 0 := (idx_facts1 t).w2.1
  have f1 : win1_2.index t (1 : Fin 2) = 0 := (idx_facts1 t).w2.2
  funext a; apply Fin.ext
  match a with
  | ⟨0, _⟩ => show win1_2.index t (0 : Fin 2) * 1 + 1 * k.val = k.val; rw [f0]; omega
  | ⟨1, _⟩ => show win1_2.index t (1 : Fin 2) * 128 + 1 * q.val = q.val; rw [f1]; omega

theorem emb1_3 (t : Fin cfg1.N) (k : Fin 1) (q : Fin 128) :
    ((cfg1.win 3).blk t).view.emb (ix2 k q) = (ix2 k q : S1x128.Idx) := by
  have f0 : win1_3.index t (0 : Fin 2) = 0 := (idx_facts1 t).w3.1
  have f1 : win1_3.index t (1 : Fin 2) = 0 := (idx_facts1 t).w3.2
  funext a; apply Fin.ext
  match a with
  | ⟨0, _⟩ => show win1_3.index t (0 : Fin 2) * 1 + 1 * k.val = k.val; rw [f0]; omega
  | ⟨1, _⟩ => show win1_3.index t (1 : Fin 2) * 128 + 1 * q.val = q.val; rw [f1]; omega

theorem emb1_4 (t : Fin cfg1.N) (k : Fin 1) (q : Fin 128) :
    ((cfg1.win 4).blk t).view.emb (ix2 k q) = (ix2 k q : S1x128.Idx) := by
  have f0 : win1_4.index t (0 : Fin 2) = 0 := (idx_facts1 t).w4.1
  have f1 : win1_4.index t (1 : Fin 2) = 0 := (idx_facts1 t).w4.2
  funext a; apply Fin.ext
  match a with
  | ⟨0, _⟩ => show win1_4.index t (0 : Fin 2) * 1 + 1 * k.val = k.val; rw [f0]; omega
  | ⟨1, _⟩ => show win1_4.index t (1 : Fin 2) * 128 + 1 * q.val = q.val; rw [f1]; omega

theorem emb1_6 (t : Fin cfg1.N) (k : Fin 1) (q : Fin 128) :
    ((cfg1.win 6).blk t).view.emb (ix2 k q) = (ix2 k q : S1x128.Idx) := by
  have f0 : win1_6.index t (0 : Fin 2) = 0 := (idx_facts1 t).w6.1
  have f1 : win1_6.index t (1 : Fin 2) = 0 := (idx_facts1 t).w6.2
  funext a; apply Fin.ext
  match a with
  | ⟨0, _⟩ => show win1_6.index t (0 : Fin 2) * 1 + 1 * k.val = k.val; rw [f0]; omega
  | ⟨1, _⟩ => show win1_6.index t (1 : Fin 2) * 128 + 1 * q.val = q.val; rw [f1]; omega

theorem emb1_5 (t : Fin cfg1.N) (k : Fin 128) (q : Fin 128) :
    ((cfg1.win 5).blk t).view.emb (ix2 k q) = (ix2 k q : S128x128.Idx) := by
  have f0 : win1_5.index t (0 : Fin 2) = 0 := (idx_facts1 t).w5.1
  have f1 : win1_5.index t (1 : Fin 2) = 0 := (idx_facts1 t).w5.2
  funext a; apply Fin.ext
  match a with
  | ⟨0, _⟩ => show win1_5.index t (0 : Fin 2) * 128 + 1 * k.val = k.val; rw [f0]; omega
  | ⟨1, _⟩ => show win1_5.index t (1 : Fin 2) * 128 + 1 * q.val = q.val; rw [f1]; omega

theorem emb1_7 (t : Fin cfg1.N) (p : Fin 10000) (k : Fin 128) :
    ((cfg1.win 7).blk t).view.emb (ix2 p k) = (ix2 (Cert.Spec.rowN t.val p) k : S100000x128.Idx) := by
  have hN : cfg1.N = 10 := N_1
  have ht : t.val < 10 := hN ▸ t.isLt
  have f0 : win1_7.index t (0 : Fin 2) = t.val := (idx_facts1 t).w7.1
  have f1 : win1_7.index t (1 : Fin 2) = 0 := (idx_facts1 t).w7.2
  funext a; apply Fin.ext
  match a with
  | ⟨0, _⟩ => show win1_7.index t (0 : Fin 2) * 10000 + 1 * p.val = (Cert.Spec.rowN t.val p).val; rw [f0, Cert.Spec.rowN_val _ ht]; omega
  | ⟨1, _⟩ => show win1_7.index t (1 : Fin 2) * 128 + 1 * k.val = k.val; rw [f1]; omega

theorem emb1_8 (t : Fin cfg1.N) (k : Fin 1) (q : Fin 128) :
    ((cfg1.win 8).blk t).view.emb (ix2 k q) = (ix2 k q : S1x128.Idx) := by
  have f0 : win1_8.index t (0 : Fin 2) = 0 := (idx_facts1 t).w8.1
  have f1 : win1_8.index t (1 : Fin 2) = 0 := (idx_facts1 t).w8.2
  funext a; apply Fin.ext
  match a with
  | ⟨0, _⟩ => show win1_8.index t (0 : Fin 2) * 1 + 1 * k.val = k.val; rw [f0]; omega
  | ⟨1, _⟩ => show win1_8.index t (1 : Fin 2) * 128 + 1 * q.val = q.val; rw [f1]; omega

theorem emb1_9 (t : Fin cfg1.N) (k : Fin 1) (q : Fin 128) :
    ((cfg1.win 9).blk t).view.emb (ix2 k q) = (ix2 k q : S1x128.Idx) := by
  have f0 : win1_9.index t (0 : Fin 2) = 0 := (idx_facts1 t).w9.1
  have f1 : win1_9.index t (1 : Fin 2) = 0 := (idx_facts1 t).w9.2
  funext a; apply Fin.ext
  match a with
  | ⟨0, _⟩ => show win1_9.index t (0 : Fin 2) * 1 + 1 * k.val = k.val; rw [f0]; omega
  | ⟨1, _⟩ => show win1_9.index t (1 : Fin 2) * 128 + 1 * q.val = q.val; rw [f1]; omega

/-- The layer's result from the seven arrays the kernel reads: the matrix, its column means and variances, the
    scale and shift rows, the weights and the bias row. -/
def H1 (a0 : S100000x128.Idx → EReal) (a1 a2 a3 a4 : S1x128.Idx → EReal) (a5 : S128x128.Idx → EReal) (a6 : S1x128.Idx → EReal) : Cert.Spec.Mat 100000 128 :=
  Cert.Spec.dense (Cert.Spec.norm (Cert.Spec.mat a0) (fun k => a1 (ix2 (0 : Fin 1) k)) (fun k => a2 (ix2 (0 : Fin 1) k)) (fun k => a3 (ix2 (0 : Fin 1) k)) (fun k => a4 (ix2 (0 : Fin 1) k))) (Cert.Spec.mat a5) (fun j => a6 (ix2 (0 : Fin 1) j))

/-- The layer's payload at (p, q) of a block whose rows are the arrays' rows r. -/
theorem pay5_pure1 (a0 : S100000x128.Idx → EReal) (a1 a2 a3 a4 : S1x128.Idx → EReal) (a5 : S128x128.Idx → EReal) (a6 : S1x128.Idx → EReal)
    (x0 : Vec Ideal S10000x128 .f32) (x1 x2 x3 x4 : Vec Ideal S1x128 .f32) (x5 : Vec Ideal S128x128 .f32) (x6 : Vec Ideal S1x128 .f32)
    (r : Fin 100000) (p : Fin 10000) (q : Fin 128)
    (h0 : ∀ k : Fin 128, x0 (ix2 p k) = a0 (ix2 r k))
    (h1 : ∀ k : Fin 128, x1 (ix2 (0 : Fin 1) k) = a1 (ix2 (0 : Fin 1) k))
    (h2 : ∀ k : Fin 128, x2 (ix2 (0 : Fin 1) k) = a2 (ix2 (0 : Fin 1) k))
    (h3 : ∀ k : Fin 128, x3 (ix2 (0 : Fin 1) k) = a3 (ix2 (0 : Fin 1) k))
    (h4 : ∀ k : Fin 128, x4 (ix2 (0 : Fin 1) k) = a4 (ix2 (0 : Fin 1) k))
    (h5 : ∀ k : Fin 128, x5 (ix2 k q) = a5 (ix2 k q)) (h6 : x6 (ix2 (0 : Fin 1) q) = a6 (ix2 (0 : Fin 1) q)) :
    k1_pay5 (F := Ideal) x0 x1 x2 x3 x4 x5 x6 (ix2 p q) = H1 a0 a1 a2 a3 a4 a5 a6 r q := by
  rw [Cert.KernelIdeal.Pay.k1_pay5_apply]
  unfold H1 Cert.Spec.dense Cert.Spec.norm Cert.Spec.mat
  simp only [h0, h1, h2, h3, h4, h5, h6]

theorem iblk1_0 (c : Dev nD) (t : Fin cfg1.N) (p : Fin 10000) (k : Fin 128) :
    iblk1 V c 0 t (ix2 p k) = V c (Pipeline.arrRef spec1 0) (ix2 (rowN t.val p) k) := by
  unfold iblk1; rw [View.read_apply, emb1_0]; exact cast_eq _ _
theorem iblk1_1 (c : Dev nD) (t : Fin cfg1.N) (q : Fin 128) :
    iblk1 V c 1 t (ix2 (0 : Fin 1) q) = V c (Pipeline.arrRef spec1 1) (ix2 (0 : Fin 1) q) := by
  unfold iblk1; rw [View.read_apply, emb1_1]; exact cast_eq _ _
theorem iblk1_2 (c : Dev nD) (t : Fin cfg1.N) (q : Fin 128) :
    iblk1 V c 2 t (ix2 (0 : Fin 1) q) = V c (Pipeline.arrRef spec1 2) (ix2 (0 : Fin 1) q) := by
  unfold iblk1; rw [View.read_apply, emb1_2]; exact cast_eq _ _
theorem iblk1_3 (c : Dev nD) (t : Fin cfg1.N) (q : Fin 128) :
    iblk1 V c 3 t (ix2 (0 : Fin 1) q) = V c (Pipeline.arrRef spec1 3) (ix2 (0 : Fin 1) q) := by
  unfold iblk1; rw [View.read_apply, emb1_3]; exact cast_eq _ _
theorem iblk1_4 (c : Dev nD) (t : Fin cfg1.N) (q : Fin 128) :
    iblk1 V c 4 t (ix2 (0 : Fin 1) q) = V c (Pipeline.arrRef spec1 4) (ix2 (0 : Fin 1) q) := by
  unfold iblk1; rw [View.read_apply, emb1_4]; exact cast_eq _ _
theorem iblk1_6 (c : Dev nD) (t : Fin cfg1.N) (q : Fin 128) :
    iblk1 V c 6 t (ix2 (0 : Fin 1) q) = V c (Pipeline.arrRef spec1 6) (ix2 (0 : Fin 1) q) := by
  unfold iblk1; rw [View.read_apply, emb1_6]; exact cast_eq _ _
theorem iblk1_5 (c : Dev nD) (t : Fin cfg1.N) (k : Fin 128) (q : Fin 128) :
    iblk1 V c 5 t (ix2 k q) = V c (Pipeline.arrRef spec1 5) (ix2 k q) := by
  unfold iblk1; rw [View.read_apply, emb1_5]; exact cast_eq _ _

/-- The layer's block at point t. -/
abbrev P5 (c : Dev nD) (t : Fin cfg1.N) : FVec Ideal S10000x128 .f32 :=
  k1_pay5 (F := Ideal) (iblk1 V c 0 t) (iblk1 V c 1 t) (iblk1 V c 2 t) (iblk1 V c 3 t) (iblk1 V c 4 t) (iblk1 V c 5 t) (iblk1 V c 6 t)

/-- The result matrix of region 1 from the entry contents. -/
abbrev HV1 (c : Dev nD) : Cert.Spec.Mat 100000 128 :=
  H1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))

theorem P5_apply (c : Dev nD) (t : Fin cfg1.N) (p : Fin 10000) (q : Fin 128) :
    P5 V c t (ix2 p q) = HV1 V c (rowN t.val p) q :=
  pay5_pure1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
    (iblk1 V c 0 t) (iblk1 V c 1 t) (iblk1 V c 2 t) (iblk1 V c 3 t) (iblk1 V c 4 t) (iblk1 V c 5 t) (iblk1 V c 6 t) (rowN t.val p) p q
    (fun k => iblk1_0 V c t p k) (fun k => iblk1_1 V c t k) (fun k => iblk1_2 V c t k) (fun k => iblk1_3 V c t k)
    (fun k => iblk1_4 V c t k) (fun k => iblk1_5 V c t k q) (iblk1_6 V c t q)

/-- After every point the first output buffer holds the layer's block of that point. -/
theorem outs1_1 (c : Dev nD) (t : Fin cfg1.N) : (outsAt1 V c t.val t.isLt).1 = P5 V c t := by
  by_cases h0 : t.val % 10 = 0
  · rw [outsAt1_A V c t h0]; dsimp only; exact out1_A_7_eq ..
  · rw [outsAt1_B V c t h0]; dsimp only; exact out1_B_7_eq ..

/-- The running column sum after point n: the zero word plus the tiles 0 … n. -/
def run8 (c : Dev nD) (n : ℕ) : Vec Ideal S1x128 .f32 :=
  rowArr fun q => zeroE + ∑ s ∈ Finset.range (n + 1), ∑ p : Fin 10000, HV1 V c (rowN s p) q
/-- The running column sum of squares after point n. -/
def run9 (c : Dev nD) (n : ℕ) : Vec Ideal S1x128 .f32 :=
  rowArr fun q => zeroE + ∑ s ∈ Finset.range (n + 1), ∑ p : Fin 10000, HV1 V c (rowN s p) q * HV1 V c (rowN s p) q

theorem row_idx1 (j : (⟨2, ![1, 128]⟩ : Shape).Idx) : j = ix2 (0 : Fin 1) (j 1) := funext fun a => by
  match a with
  | ⟨0, _⟩ => exact Fin.ext (by have h1 : (j 0).val < 1 := (j 0).isLt; show (j 0).val = 0; omega)
  | ⟨1, _⟩ => rfl

theorem ext_row1 {α : Type} {f g : (⟨2, ![1, 128]⟩ : Shape).Idx → α} (h : ∀ q : Fin 128, f (ix2 (0 : Fin 1) q) = g (ix2 (0 : Fin 1) q)) : f = g :=
  funext fun j => by rw [row_idx1 j]; exact h _

theorem pay1_step1 (c : Dev nD) (t : Fin cfg1.N) (acc : Vec Ideal S1x128 .f32) (q : Fin 128) :
    k1_pay1 (F := Ideal) (k1_pay5 (F := Ideal) (iblk1 V c 0 t) (iblk1 V c 1 t) (iblk1 V c 2 t) (iblk1 V c 3 t) (iblk1 V c 4 t) (iblk1 V c 5 t) (iblk1 V c 6 t)) acc (ix2 (0 : Fin 1) q)
      = acc (ix2 (0 : Fin 1) q) + ∑ p : Fin 10000, HV1 V c (rowN t.val p) q := by
  rw [Cert.KernelIdeal.Pay.k1_pay1_apply]
  exact congrArg _ (Finset.sum_congr rfl fun p _ => P5_apply V c t p q)

theorem pay2_step1 (c : Dev nD) (t : Fin cfg1.N) (acc : Vec Ideal S1x128 .f32) (q : Fin 128) :
    k1_pay2 (F := Ideal) (k1_pay5 (F := Ideal) (iblk1 V c 0 t) (iblk1 V c 1 t) (iblk1 V c 2 t) (iblk1 V c 3 t) (iblk1 V c 4 t) (iblk1 V c 5 t) (iblk1 V c 6 t)) acc (ix2 (0 : Fin 1) q)
      = acc (ix2 (0 : Fin 1) q) + ∑ p : Fin 10000, HV1 V c (rowN t.val p) q * HV1 V c (rowN t.val p) q := by
  rw [Cert.KernelIdeal.Pay.k1_pay2_apply]
  exact congrArg _ (Finset.sum_congr rfl fun p _ => by rw [show k1_pay5 (F := Ideal) (iblk1 V c 0 t) (iblk1 V c 1 t) (iblk1 V c 2 t) (iblk1 V c 3 t) (iblk1 V c 4 t) (iblk1 V c 5 t) (iblk1 V c 6 t) (ix2 p q) = HV1 V c (rowN t.val p) q from P5_apply V c t p q])

/-- The two accumulators after every point are the running sums. -/
theorem outs1_acc (c : Dev nD) : ∀ (n : ℕ) (h : n < cfg1.N),
    (outsAt1 V c n h).2.1 = run8 V c n ∧ (outsAt1 V c n h).2.2 = run9 V c n
  | 0, h => by
    rw [outsAt1_A V c ⟨0, h⟩ rfl]; dsimp only
    rw [out1_A_8_eq, out1_A_9_eq]
    constructor
    · refine ext_row1 fun q => ?_
      rw [pay1_step1 V c ⟨0, h⟩, Cert.KernelIdeal.Pay.k1_pay3_apply]
      show _ = zeroE + ∑ s ∈ Finset.range (0 + 1), _
      rw [Finset.sum_range_one]
    · refine ext_row1 fun q => ?_
      rw [pay2_step1 V c ⟨0, h⟩, Cert.KernelIdeal.Pay.k1_pay4_apply]
      show _ = zeroE + ∑ s ∈ Finset.range (0 + 1), _
      rw [Finset.sum_range_one]
  | n + 1, h => by
    have hN : cfg1.N = 10 := N_1
    have hB : ¬(⟨n + 1, h⟩ : Fin cfg1.N).val % 10 = 0 := by dsimp only; omega
    obtain ⟨ih8, ih9⟩ := outs1_acc c n (Nat.lt_of_succ_lt h)
    rw [outsAt1_B V c ⟨n + 1, h⟩ hB]; dsimp only
    rw [out1_B_8_eq, out1_B_9_eq]
    constructor
    · refine ext_row1 fun q => ?_
      rw [pay1_step1 V c ⟨n + 1, h⟩]
      show (outsAt1 V c n _).2.1 _ + _ = zeroE + ∑ s ∈ Finset.range (n + 1 + 1), _
      rw [ih8, Finset.sum_range_succ _ (n + 1), ← add_assoc]; rfl
    · refine ext_row1 fun q => ?_
      rw [pay2_step1 V c ⟨n + 1, h⟩]
      show (outsAt1 V c n _).2.2 _ + _ = zeroE + ∑ s ∈ Finset.range (n + 1 + 1), _
      rw [ih9, Finset.sum_range_succ _ (n + 1), ← add_assoc]; rfl

theorem flush7_elem1 (c : Dev nD) (t : Fin cfg1.N) (p : Fin 10000) (q : Fin 128) :
    P5 V c t (ix2 p q) = arrOf (HV1 V c) (((cfg1.win 7).blk t).view.emb (ix2 p q)) := by
  rw [P5_apply, emb1_7]; rfl

/-- What point t writes back through the first output window is block t of the layer's result. -/
theorem flushed1_7 (c : Dev nD) (t : Fin cfg1.N) :
    (dat1 V c).flushed 7 t = ((cfg1.win 7).blk t).view.read (Elt Ideal) (arrOf (HV1 V c)) := by
  show (cfg1.win 7).cut (grid1.coords t) ((dat1 V c).after 7 t) = _
  rw [after1_7, outs1_1]
  funext j
  show P5 V c t j = arrOf (HV1 V c) (((cfg1.win 7).blk t).view.emb j)
  rw [show j = ix2 (j 0) (j 1) from eq_ix2 j]
  exact flush7_elem1 V c t (j 0) (j 1)

theorem mem_blk1_7 (t : Fin cfg1.N) (i : S100000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole main_v27_0).slice (win1_7.rect t)).set ↔ _
  rw [View.set_slice_whole, Rect.mem_set_unit]
  exact Iff.rfl

theorem cover1_7' (i : S100000x128.Idx) : ∃ t : Fin cfg1.N, (cfg1.win 7).flush t = true ∧ i ∈ ((cfg1.win 7).blk t).view.set := by
  have hN : cfg1.N = 10 := N_1
  have hi0 : (i 0).val < 100000 := (i 0).isLt
  have hi1 : (i 1).val < 128 := (i 1).isLt
  refine ⟨⟨(i 0).val / 10000, by rw [hN]; omega⟩, flush1_7 _, ?_⟩
  rw [mem_blk1_7]
  obtain ⟨f0, f1⟩ := (idx_facts1 ⟨(i 0).val / 10000, by rw [hN]; omega⟩).w7
  intro a
  match a with
  | ⟨0, _⟩ => show win1_7.index _ (0 : Fin 2) * 10000 ≤ (i 0).val ∧ (i 0).val < win1_7.index _ (0 : Fin 2) * 10000 + 10000; rw [f0]; dsimp only; omega
  | ⟨1, _⟩ => show win1_7.index _ (1 : Fin 2) * 128 ≤ (i 1).val ∧ (i 1).val < win1_7.index _ (1 : Fin 2) * 128 + 128; rw [f1]; omega

/-- THE RESULT ARRAY of region 1: the layer of the normalised input matrix. -/
theorem final1_7 (c : Dev nD) : (dat1 V c).arrAt 7 cfg1.N = Cert.Spec.arrOf (HV1 V c) :=
  (dat1 V c).arrAt_eq_of_cover 7 _ (fun t _ => flushed1_7 V c t) cover1_7'

theorem run8_last (c : Dev nD) : run8 V c 9 = rowArr fun q => zeroE + Cert.Spec.colSum (HV1 V c) q := by
  unfold run8 Cert.Spec.colSum
  refine congrArg rowArr (funext fun q => congrArg (zeroE + ·) ?_)
  exact Cert.Spec.sum_tiles fun r => HV1 V c r q

theorem run9_last (c : Dev nD) : run9 V c 9 = rowArr fun q => zeroE + Cert.Spec.colSumSq (HV1 V c) q := by
  unfold run9 Cert.Spec.colSumSq
  refine congrArg rowArr (funext fun q => congrArg (zeroE + ·) ?_)
  exact Cert.Spec.sum_tiles fun r => HV1 V c r q * HV1 V c r q

theorem flush8_elem1 (c : Dev nD) (t : Fin cfg1.N) (h9 : t.val = 9) (q : Fin 128) :
    run8 V c t.val (ix2 (0 : Fin 1) q)
      = rowArr (fun q => zeroE + Cert.Spec.colSum (HV1 V c) q) (((cfg1.win 8).blk t).view.emb (ix2 (0 : Fin 1) q)) := by
  rw [emb1_8, h9, run8_last]
theorem flush9_elem1 (c : Dev nD) (t : Fin cfg1.N) (h9 : t.val = 9) (q : Fin 128) :
    run9 V c t.val (ix2 (0 : Fin 1) q)
      = rowArr (fun q => zeroE + Cert.Spec.colSumSq (HV1 V c) q) (((cfg1.win 9).blk t).view.emb (ix2 (0 : Fin 1) q)) := by
  rw [emb1_9, h9, run9_last]

theorem flushed1_8 (c : Dev nD) (t : Fin cfg1.N) (hf : (cfg1.win 8).flush t = true) :
    (dat1 V c).flushed 8 t = ((cfg1.win 8).blk t).view.read (Elt Ideal) (rowArr fun q => zeroE + Cert.Spec.colSum (HV1 V c) q) := by
  have hN : cfg1.N = 10 := N_1
  have h9 : t.val = 9 := by have := (flush1_8 t).mp hf; have := t.isLt; omega
  show (cfg1.win 8).cut (grid1.coords t) ((dat1 V c).after 8 t) = _
  rw [after1_8, (outs1_acc V c t.val t.isLt).1]
  funext j
  show run8 V c t.val j = rowArr (fun q => zeroE + Cert.Spec.colSum (HV1 V c) q) (((cfg1.win 8).blk t).view.emb j)
  rw [show j = ix2 (0 : Fin 1) (j 1) from row_idx1 j]
  exact flush8_elem1 V c t h9 (j 1)

theorem flushed1_9 (c : Dev nD) (t : Fin cfg1.N) (hf : (cfg1.win 9).flush t = true) :
    (dat1 V c).flushed 9 t = ((cfg1.win 9).blk t).view.read (Elt Ideal) (rowArr fun q => zeroE + Cert.Spec.colSumSq (HV1 V c) q) := by
  have hN : cfg1.N = 10 := N_1
  have h9 : t.val = 9 := by have := (flush1_9 t).mp hf; have := t.isLt; omega
  show (cfg1.win 9).cut (grid1.coords t) ((dat1 V c).after 9 t) = _
  rw [after1_9, (outs1_acc V c t.val t.isLt).2]
  funext j
  show run9 V c t.val j = rowArr (fun q => zeroE + Cert.Spec.colSumSq (HV1 V c) q) (((cfg1.win 9).blk t).view.emb j)
  rw [show j = ix2 (0 : Fin 1) (j 1) from row_idx1 j]
  exact flush9_elem1 V c t h9 (j 1)

theorem mem_blk1_8 (t : Fin cfg1.N) (i : S1x128.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v27_1).slice (win1_8.rect t)).set ↔ _
  rw [View.set_slice_whole, Rect.mem_set_unit]
  exact Iff.rfl

theorem mem_blk1_9 (t : Fin cfg1.N) (i : S1x128.Idx) :
    i ∈ ((cfg1.win 9).blk t).view.set ↔ ∀ a : Fin 2, win1_9.index t a * S1x128.size a ≤ (i a).val ∧ (i a).val < win1_9.index t a * S1x128.size a + S1x128.size a := by
  show i ∈ ((View.whole main_v27_2).slice (win1_9.rect t)).set ↔ _
  rw [View.set_slice_whole, Rect.mem_set_unit]
  exact Iff.rfl

theorem cover1_8' (i : S1x128.Idx) : ∃ t : Fin cfg1.N, (cfg1.win 8).flush t = true ∧ i ∈ ((cfg1.win 8).blk t).view.set := by
  have hN : cfg1.N = 10 := N_1
  have hi0 : (i 0).val < 1 := (i 0).isLt
  have hi1 : (i 1).val < 128 := (i 1).isLt
  refine ⟨⟨9, by rw [hN]; omega⟩, (flush1_8 _).mpr rfl, ?_⟩
  rw [mem_blk1_8]
  obtain ⟨f0, f1⟩ := (idx_facts1 ⟨9, by rw [hN]; omega⟩).w8
  intro a
  match a with
  | ⟨0, _⟩ => show win1_8.index _ (0 : Fin 2) * 1 ≤ (i 0).val ∧ (i 0).val < win1_8.index _ (0 : Fin 2) * 1 + 1; rw [f0]; omega
  | ⟨1, _⟩ => show win1_8.index _ (1 : Fin 2) * 128 ≤ (i 1).val ∧ (i 1).val < win1_8.index _ (1 : Fin 2) * 128 + 128; rw [f1]; omega

theorem cover1_9' (i : S1x128.Idx) : ∃ t : Fin cfg1.N, (cfg1.win 9).flush t = true ∧ i ∈ ((cfg1.win 9).blk t).view.set := by
  have hN : cfg1.N = 10 := N_1
  have hi0 : (i 0).val < 1 := (i 0).isLt
  have hi1 : (i 1).val < 128 := (i 1).isLt
  refine ⟨⟨9, by rw [hN]; omega⟩, (flush1_9 _).mpr rfl, ?_⟩
  rw [mem_blk1_9]
  obtain ⟨f0, f1⟩ := (idx_facts1 ⟨9, by rw [hN]; omega⟩).w9
  intro a
  match a with
  | ⟨0, _⟩ => show win1_9.index _ (0 : Fin 2) * 1 ≤ (i 0).val ∧ (i 0).val < win1_9.index _ (0 : Fin 2) * 1 + 1; rw [f0]; omega
  | ⟨1, _⟩ => show win1_9.index _ (1 : Fin 2) * 128 ≤ (i 1).val ∧ (i 1).val < win1_9.index _ (1 : Fin 2) * 128 + 128; rw [f1]; omega

/-- THE COLUMN SUMS of region 1's result: the zero word plus the sum over all rows. -/
theorem final1_8 (c : Dev nD) : (dat1 V c).arrAt 8 cfg1.N = Cert.Spec.rowArr fun q => Cert.Spec.zeroE + Cert.Spec.colSum (HV1 V c) q :=
  (dat1 V c).arrAt_eq_of_cover 8 _ (flushed1_8 V c) cover1_8'
/-- THE COLUMN SUMS OF SQUARES of region 1's result. -/
theorem final1_9 (c : Dev nD) : (dat1 V c).arrAt 9 cfg1.N = Cert.Spec.rowArr fun q => Cert.Spec.zeroE + Cert.Spec.colSumSq (HV1 V c) q :=
  (dat1 V c).arrAt_eq_of_cover 9 _ (flushed1_9 V c) cover1_9'

end Cert.KernelIdeal.Val

end
-- ==== Proof.KernelValue.lean ====
import proofs.«129211_j18184891531553_1_alg».proof.Proof.Gen.KernelIdeal.Frame
import proofs.«129211_j18184891531553_1_alg».proof.Proof.Gen.ReferenceIdeal.Read
import proofs.«129211_j18184891531553_1_alg».proof.Proof.Spec
import proofs.«129211_j18184891531553_1_alg».proof.Proof.Arr
import proofs.«129211_j18184891531553_1_alg».proof.Proof.Payloads
import proofs.«129211_j18184891531553_1_alg».proof.Proof.Region0
import proofs.«129211_j18184891531553_1_alg».proof.Proof.Region2
import proofs.«129211_j18184891531553_1_alg».proof.Proof.Region1
import Idealize.ShloMosaic.Lib.StableHlo.Run
import Idealize.ShloMosaic.Lib.Pipeline.Value
import Idealize.ShloMosaic.Lib.ValueIdx
import Idealize.ShloMosaic.Lib.ValueLayout

noncomputable section

open scoped BigOperators

/-! The kernel's result as one function of its arguments. The program is three kernel regions among stretches of
    host operations; walking from the launch to the return, each buffer a region reads is named as a function of the
    arguments: the first region's inputs (the features, the neighbour sums, the first weights and bias), its three
    results (the first dense layer and its two column sums), the mean and variance rows the host makes of them, the
    second region's results likewise, and the third region's normalisation. -/

namespace Cert.KernelIdeal.Val

open Cert.KernelIdeal Cert.KernelIdeal.Gen Idealize.ShloMosaic Idealize.ShloMosaic.TcCoe Idealize.SL.Sem
open Idealize.ShloMosaic.ValueIdx Idealize.ShloMosaic.StableHlo
open Cert.Spec (rowN arrOf rowArr zeroE mat vec)

variable (m : (ℓ : Loc nD τ sig) → Buf (Elt Ideal) ℓ) (ρ : Dev nD → PrngReg) (c : Dev nD)

/-! ## The buffers as the first region finds them -/

theorem V1_arg0 : V1 m ρ c main_arg0 = (m ((c.tc : Thread nD τ).loc main_arg0)) := by
  show StableHlo.after hostOps0 (W0 m ρ c) (Proc.devRef .tc main_arg0) = _
  after_results
theorem V1_arg2 : V1 m ρ c main_arg2 = (m ((c.tc : Thread nD τ).loc main_arg2)) := by
  show StableHlo.after hostOps0 (W0 m ρ c) (Proc.devRef .tc main_arg2) = _
  after_results
theorem V1_v14 : V1 m ρ c main_v14 = shapeCast S1x128 (m ((c.tc : Thread nD τ).loc main_arg3)) shapeCasts_S128_S1x128 := by
  show StableHlo.after hostOps0 (W0 m ρ c) (Proc.devRef .tc main_v14) = _
  after_results
  rfl
/-- The neighbour sums: the same seventeen host operations in both programs. -/
theorem V1_v13 : V1 m ρ c main_v13 = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v13) = _
  after_results
  rfl

/-- The first dense layer of the node features plus the neighbour sums. -/
def D1 : Cert.Spec.Mat 100000 128 :=
  Cert.Spec.dense (fun r k => mat (a := 100000) (b := 64) (m ((c.tc : Thread nD τ).loc main_arg0)) r k
      + mat (a := 100000) (b := 64) (Cert.ReferenceIdeal.Read.val_main_v13 (F := Ideal) (m ((c.tc : Thread nD τ).loc main_arg0)) (m ((c.tc : Thread nD τ).loc main_arg1))) r k)
    (mat (a := 64) (b := 128) (m ((c.tc : Thread nD τ).loc main_arg2))) (vec (n := 128) (m ((c.tc : Thread nD τ).loc main_arg3)))

theorem HV0_eq : HV0 (V1 m ρ) c = D1 m c := by
  show H0 (V1 m ρ c main_arg0) (V1 m ρ c main_v13) (V1 m ρ c main_arg2) (V1 m ρ c main_v14) = _
  rw [V1_arg0, V1_v13, V1_arg2, V1_v14]
  unfold H0 D1
  exact congrArg (Cert.Spec.dense _ _) (funext fun j => Cert.KernelIdeal.Pay.oneRow_apply _ j)

/-! ## After the first region -/

theorem W2_v20_0 : W2 m ρ c (Proc.devRef .tc main_v20_0) = arrOf (D1 m c) :=
  (W2_arr m ρ c 4).trans ((final0_4 (V1 m ρ) c).trans (congrArg arrOf (HV0_eq m ρ c)))
theorem W2_v20_1 : W2 m ρ c (Proc.devRef .tc main_v20_1) = rowArr fun q => zeroE + Cert.Spec.colSum (D1 m c) q :=
  (W2_arr m ρ c 5).trans ((final0_5 (V1 m ρ) c).trans (by rw [HV0_eq]))
theorem W2_v20_2 : W2 m ρ c (Proc.devRef .tc main_v20_2) = rowArr fun q => zeroE + Cert.Spec.colSumSq (D1 m c) q :=
  (W2_arr m ρ c 6).trans ((final0_6 (V1 m ρ) c).trans (by rw [HV0_eq]))

/-! ## Between the first and the second region: the column statistics -/

/-- A one-row array of column sums (started from the zero word) divided by the row count is the row of means. -/
theorem divRow (f : Cert.Spec.Row 128) :
    Host.divf (F := Ideal) (rowArr fun q => zeroE + f q)
        (broadcastInDim S1x128 ![] bcast_S_S1x128 (constant (F := Ideal) S_ .f32 0x47C35000#32))
      = rowArr (Cert.Spec.mean f) := by
  funext i
  show Ideal.div (zeroE + f _) _ = Ideal.div (f _) Cert.Spec.cntE
  rw [Cert.Spec.zeroE_eq, zero_add]
  rfl

/-- The second moment's row minus the square of the mean's row is the row of variances. -/
theorem varRow (S Q : Cert.Spec.Row 128) :
    subf (F := Ideal) (φ := .f32) (s := S1x128) (rowArr (Cert.Spec.mean Q)) (mulf (F := Ideal) (φ := .f32) (s := S1x128) (rowArr (Cert.Spec.mean S)) (rowArr (Cert.Spec.mean S)))
      = rowArr (Cert.Spec.varMoments S Q) := rfl

theorem V3_v20_0 : V3 m ρ c main_v20_0 = arrOf (D1 m c) := by
  show StableHlo.after hostOps1 (W2 m ρ c) (Proc.devRef .tc main_v20_0) = _
  after_results
  exact W2_v20_0 m ρ c
theorem V3_v22 : V3 m ρ c main_v22 = rowArr (Cert.Spec.mean (Cert.Spec.colSum (D1 m c))) := by
  show StableHlo.after hostOps1 (W2 m ρ c) (Proc.devRef .tc main_v22) = _
  after_results
  rw [W2_v20_1]
  exact divRow _
theorem V3_v26 : V3 m ρ c main_v26 = rowArr (Cert.Spec.varMoments (Cert.Spec.colSum (D1 m c)) (Cert.Spec.colSumSq (D1 m c))) := by
  show StableHlo.after hostOps1 (W2 m ρ c) (Proc.devRef .tc main_v26) = _
  after_results
  rw [W2_v20_1, W2_v20_2, divRow, divRow]
  exact varRow _ _
theorem V3_v15 : V3 m ρ c main_v15 = shapeCast S1x128 (m ((c.tc : Thread nD τ).loc main_arg4)) shapeCasts_S128_S1x128 := by
  show StableHlo.after hostOps1 (W2 m ρ c) (Proc.devRef .tc main_v15) = _
  after_results
  rw [W2_of_ne m ρ c main_v15 (by decide)]
  show StableHlo.after hostOps0 (W0 m ρ c) (Proc.devRef .tc main_v15) = _
  after_results
  rfl
theorem V3_v16 : V3 m ρ c main_v16 = shapeCast S1x128 (m ((c.tc : Thread nD τ).loc main_arg5)) shapeCasts_S128_S1x128 := by
  show StableHlo.after hostOps1 (W2 m ρ c) (Proc.devRef .tc main_v16) = _
  after_results
  rw [W2_of_ne m ρ c main_v16 (by decide)]
  show StableHlo.after hostOps0 (W0 m ρ c) (Proc.devRef .tc main_v16) = _
  after_results
  rfl
theorem V3_v17 : V3 m ρ c main_v17 = shapeCast S1x128 (m ((c.tc : Thread nD τ).loc main_arg7)) shapeCasts_S128_S1x128 := by
  show StableHlo.after hostOps1 (W2 m ρ c) (Proc.devRef .tc main_v17) = _
  after_results
  rw [W2_of_ne m ρ c main_v17 (by decide)]
  show StableHlo.after hostOps0 (W0 m ρ c) (Proc.devRef .tc main_v17) = _
  after_results
  rfl
theorem V3_arg6 : V3 m ρ c main_arg6 = (m ((c.tc : Thread nD τ).loc main_arg6)) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results

/-- The second dense layer, of the first layer's normalisation. -/
def D2 : Cert.Spec.Mat 100000 128 :=
  Cert.Spec.dense (Cert.Spec.bnMoments (D1 m c) (vec (n := 128) (m ((c.tc : Thread nD τ).loc main_arg4))) (vec (n := 128) (m ((c.tc : Thread nD τ).loc main_arg5))))
    (mat (a := 128) (b := 128) (m ((c.tc : Thread nD τ).loc main_arg6))) (vec (n := 128) (m ((c.tc : Thread nD τ).loc main_arg7)))

/-- The second region's function of a matrix, two rows of statistics, three vectors viewed as rows and a weight
    matrix is the dense layer of the normalisation. -/
theorem H1_eq (H : Cert.Spec.Mat 100000 128) (mu var : Cert.Spec.Row 128) (g be : FVec Ideal S128 .f32)
    (W : S128x128.Idx → EReal) (b : FVec Ideal S128 .f32) :
    H1 (arrOf H) (rowArr mu) (rowArr var) (shapeCast S1x128 g shapeCasts_S128_S1x128)
        (shapeCast S1x128 be shapeCasts_S128_S1x128) W (shapeCast S1x128 b shapeCasts_S128_S1x128)
      = Cert.Spec.dense (Cert.Spec.norm H mu var (vec (n := 128) g) (vec (n := 128) be)) (mat (a := 128) (b := 128) W) (vec (n := 128) b) := by
  have hg : (fun k : Fin 128 => shapeCast S1x128 g shapeCasts_S128_S1x128 (ix2 (0 : Fin 1) k)) = vec (n := 128) g :=
    funext fun k => Cert.KernelIdeal.Pay.oneRow_apply g k
  have hbe : (fun k : Fin 128 => shapeCast S1x128 be shapeCasts_S128_S1x128 (ix2 (0 : Fin 1) k)) = vec (n := 128) be :=
    funext fun k => Cert.KernelIdeal.Pay.oneRow_apply be k
  have hb : (fun k : Fin 128 => shapeCast S1x128 b shapeCasts_S128_S1x128 (ix2 (0 : Fin 1) k)) = vec (n := 128) b :=
    funext fun k => Cert.KernelIdeal.Pay.oneRow_apply b k
  unfold H1
  rw [hg, hbe, hb]
  rfl

theorem HV1_eq : HV1 (V3 m ρ) c = D2 m c := by
  show H1 (V3 m ρ c main_v20_0) (V3 m ρ c main_v22) (V3 m ρ c main_v26) (V3 m ρ c main_v15) (V3 m ρ c main_v16) (V3 m ρ c main_arg6) (V3 m ρ c main_v17) = _
  rw [V3_v20_0, V3_v22, V3_v26, V3_v15, V3_v16, V3_arg6, V3_v17]
  exact H1_eq _ _ _ _ _ _ _

/-! ## After the second region -/

theorem W4_v27_0 : W4 m ρ c (Proc.devRef .tc main_v27_0) = arrOf (D2 m c) :=
  (W4_arr m ρ c 7).trans ((final1_7 (V3 m ρ) c).trans (congrArg arrOf (HV1_eq m ρ c)))
theorem W4_v27_1 : W4 m ρ c (Proc.devRef .tc main_v27_1) = rowArr fun q => zeroE + Cert.Spec.colSum (D2 m c) q :=
  (W4_arr m ρ c 8).trans ((final1_8 (V3 m ρ) c).trans (by rw [HV1_eq]))
theorem W4_v27_2 : W4 m ρ c (Proc.devRef .tc main_v27_2) = rowArr fun q => zeroE + Cert.Spec.colSumSq (D2 m c) q :=
  (W4_arr m ρ c 9).trans ((final1_9 (V3 m ρ) c).trans (by rw [HV1_eq]))

/-! ## Between the second and the third region, and the result -/

theorem V5_v27_0 : V5 m ρ c main_v27_0 = arrOf (D2 m c) := by
  show StableHlo.after hostOps2 (W4 m ρ c) (Proc.devRef .tc main_v27_0) = _
  after_results
  exact W4_v27_0 m ρ c
theorem V5_v29 : V5 m ρ c main_v29 = rowArr (Cert.Spec.mean (Cert.Spec.colSum (D2 m c))) := by
  show StableHlo.after hostOps2 (W4 m ρ c) (Proc.devRef .tc main_v29) = _
  after_results
  rw [W4_v27_1]
  exact divRow _
theorem V5_v33 : V5 m ρ c main_v33 = rowArr (Cert.Spec.varMoments (Cert.Spec.colSum (D2 m c)) (Cert.Spec.colSumSq (D2 m c))) := by
  show StableHlo.after hostOps2 (W4 m ρ c) (Proc.devRef .tc main_v33) = _
  after_results
  rw [W4_v27_1, W4_v27_2, divRow, divRow]
  exact varRow _ _
theorem V5_v18 : V5 m ρ c main_v18 = shapeCast S1x128 (m ((c.tc : Thread nD τ).loc main_arg8)) shapeCasts_S128_S1x128 := by
  show StableHlo.after hostOps2 (W4 m ρ c) (Proc.devRef .tc main_v18) = _
  after_results
  rw [W4_of_ne m ρ c main_v18 (by decide)]
  show StableHlo.after hostOps1 (W2 m ρ c) (Proc.devRef .tc main_v18) = _
  after_results
  rw [W2_of_ne m ρ c main_v18 (by decide)]
  show StableHlo.after hostOps0 (W0 m ρ c) (Proc.devRef .tc main_v18) = _
  after_results
  rfl
theorem V5_v19 : V5 m ρ c main_v19 = shapeCast S1x128 (m ((c.tc : Thread nD τ).loc main_arg9)) shapeCasts_S128_S1x128 := by
  show StableHlo.after hostOps2 (W4 m ρ c) (Proc.devRef .tc main_v19) = _
  after_results
  rw [W4_of_ne m ρ c main_v19 (by decide)]
  show StableHlo.after hostOps1 (W2 m ρ c) (Proc.devRef .tc main_v19) = _
  after_results
  rw [W2_of_ne m ρ c main_v19 (by decide)]
  show StableHlo.after hostOps0 (W0 m ρ c) (Proc.devRef .tc main_v19) = _
  after_results
  rfl

/-- The third region's function of a matrix and four rows is the normalisation with those statistics. -/
theorem G2_eq (H : Cert.Spec.Mat 100000 128) (mu var : Cert.Spec.Row 128) (g be : FVec Ideal S128 .f32) :
    G2 (arrOf H) (rowArr mu) (rowArr var) (shapeCast S1x128 g shapeCasts_S128_S1x128) (shapeCast S1x128 be shapeCasts_S128_S1x128)
      = arrOf (Cert.Spec.norm H mu var (vec (n := 128) g) (vec (n := 128) be)) := by
  funext i
  unfold G2
  rw [Cert.KernelIdeal.Pay.oneRow_apply, Cert.KernelIdeal.Pay.oneRow_apply]
  rfl

/-- THE KERNEL'S RESULT: the whole layer with each variance taken from the two moments, of the arguments and the
    neighbour sums. -/
theorem result :
    Gen.W6 m ρ c (Proc.devRef .tc main_v34)
      = arrOf (Cert.Spec.fwdMoments
          (mat (a := 100000) (b := 64) (m ((c.tc : Thread nD τ).loc main_arg0)))
          (mat (a := 100000) (b := 64) (Cert.ReferenceIdeal.Read.val_main_v13 (F := Ideal) (m ((c.tc : Thread nD τ).loc main_arg0)) (m ((c.tc : Thread nD τ).loc main_arg1))))
          (mat (a := 64) (b := 128) (m ((c.tc : Thread nD τ).loc main_arg2)))
          (vec (n := 128) (m ((c.tc : Thread nD τ).loc main_arg3))) (vec (n := 128) (m ((c.tc : Thread nD τ).loc main_arg4))) (vec (n := 128) (m ((c.tc : Thread nD τ).loc main_arg5)))
          (mat (a := 128) (b := 128) (m ((c.tc : Thread nD τ).loc main_arg6)))
          (vec (n := 128) (m ((c.tc : Thread nD τ).loc main_arg7))) (vec (n := 128) (m ((c.tc : Thread nD τ).loc main_arg8))) (vec (n := 128) (m ((c.tc : Thread nD τ).loc main_arg9)))) := by
  refine (W6_arr m ρ c 5).trans ((final2 (V5 m ρ) c).trans ?_)
  show G2 (V5 m ρ c main_v27_0) (V5 m ρ c main_v29) (V5 m ρ c main_v33) (V5 m ρ c main_v18) (V5 m ρ c main_v19) = _
  rw [V5_v27_0, V5_v29, V5_v33, V5_v18, V5_v19, G2_eq]
  rfl

end Cert.KernelIdeal.Val

end
-- ==== Proof.LibDenseRows.lean ====
/-
  A dense layer with a clamp from below, read one row at a time, over the extended reals.

  For an M × K matrix A, a K × N weight matrix w, a bias b of N numbers and a floor z, the layer sends row r of A
  to the row  j ↦ max (Σ_k A(r, k) · w(k, j) + b(j), z).  Row r of the result depends on row r of A only, so a stack
  of such layers acts on every row separately. The same row function is what the vector operations compute (a plain
  product into the zero accumulator with the weights passed through a change of float format, the bias viewed as
  one row and spread over the rows, a maximum with a splat) and what the host's operations compute (a dot_general,
  the bias broadcast along axis 1 and then over the rows, a maximum with a broadcast rank-0 constant). No
  finiteness is needed: both spellings have literally the same terms.
-/
import Idealize.ShloMosaic.Lib.ValueIdx
import Idealize.ShloMosaic.Lib.ValueLayout
import Idealize.ShloMosaic.Lib.Pipeline.Value
import Idealize.ShloMosaic.PureOps.Ideal.Laws
import proofs.«129211_j18184891531553_1_alg».proof.Proof.LibPlainDot
import proofs.«129211_j18184891531553_1_alg».proof.Proof.LibAffineRow

noncomputable section

open scoped BigOperators

namespace Idealize.ShloMosaic.DenseRows

open Idealize.ShloMosaic Idealize.ShloMosaic.ValueIdx

variable {M K N : Nat}

/-- Row r of an M × K matrix, as a function of the column. -/
def row (A : (⟨2, ![M, K]⟩ : Shape).Idx → EReal) (r : Fin M) : Fin K → EReal := fun k => A (ix2 r k)

/-- The row x · w (no bias): j ↦ Σ_k x(k) · w(k, j). -/
def rowDot (x : Fin K → EReal) (w : (⟨2, ![K, N]⟩ : Shape).Idx → EReal) : Fin N → EReal :=
  fun j => ∑ k : Fin K, x k * w (ix2 k j)

/-- One layer on one row: j ↦ max (Σ_k x(k) · w(k, j) + b(j), z). -/
def layer (z : EReal) (x : Fin K → EReal) (w : (⟨2, ![K, N]⟩ : Shape).Idx → EReal)
    (b : (⟨1, ![N]⟩ : Shape).Idx → EReal) : Fin N → EReal :=
  fun j => max (rowDot x w j + b (ix1 j)) z

/-- A change of float format does not change a row. -/
theorem row_truncf {φ ψ : FTy} (A : FVec Ideal ⟨2, ![M, K]⟩ φ) (h : ψ.bits < φ.bits) (r : Fin M) :
    row (truncf ψ A h : FVec Ideal ⟨2, ![M, K]⟩ ψ) r = row A r := rfl

/-- Row r of a plain product into the zero accumulator is row r of the left operand times the right operand. -/
theorem row_matmul {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨2, ![K, N]⟩ φ₂) (r : Fin M) :
    row (matmul d prec a w (constant ⟨2, ![M, N]⟩ .f32 0x00000000#32)) r = rowDot (row a r) w := by
  subst hd
  funext j
  exact PlainDot.matmul_zero_apply prec a w r j

/-- Row r of the host's plain dot_general is row r of the left operand times the right operand. -/
theorem row_dotGeneral {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨2, ![K, N]⟩ φ₂) (r : Fin M) :
    row (Host.dotGeneral d prec a w) r = rowDot (row a r) w := by
  subst hd
  funext j
  exact PlainDot.dotGeneral_apply prec .single a w r j

/-- The host's bias row: a vector broadcast along axis 1 into [1, N], at (0, j), is its entry j. -/
theorem rowInDim_apply {α : Type} (b : (⟨1, ![N]⟩ : Shape).Idx → α)
    (h : (⟨1, ![N]⟩ : Shape).BroadcastsInDim ⟨2, ![1, N]⟩ ![1]) (j : Fin N) :
    broadcastInDim ⟨2, ![1, N]⟩ ![1] h b (ix2 (0 : Fin 1) j) = b (ix1 j) := by
  refine broadcastInDim_apply ![1] h b (ix2 (0 : Fin 1) j) (ix1 j) fun ax => ?_
  match ax with
  | ⟨0, _⟩ =>
    show j.val = if N = 1 then 0 else j.val
    split
    · have := j.isLt; omega
    · rfl

/-- The host's spread of one row over M rows, at (r, j), is the row's entry (0, j). -/
theorem rowsInDim_apply {α : Type} (v : (⟨2, ![1, N]⟩ : Shape).Idx → α)
    (h : (⟨2, ![1, N]⟩ : Shape).BroadcastsInDim ⟨2, ![M, N]⟩ ![0, 1]) (r : Fin M) (j : Fin N) :
    broadcastInDim ⟨2, ![M, N]⟩ ![0, 1] h v (ix2 r j) = v (ix2 (0 : Fin 1) j) := by
  refine broadcastInDim_apply ![0, 1] h v (ix2 r j) (ix2 (0 : Fin 1) j) fun ax => ?_
  match ax with
  | ⟨0, _⟩ => show 0 = if (1 : Nat) = 1 then 0 else r.val; rw [if_pos rfl]
  | ⟨1, _⟩ =>
    show j.val = if N = 1 then 0 else j.val
    split
    · have := j.isLt; omega
    · rfl

/-- A rank-0 array broadcast to any shape reads its one entry everywhere. -/
theorem splat_apply {α : Type} (s : Shape) (x : (⟨0, ![]⟩ : Shape).Idx → α)
    (h : (⟨0, ![]⟩ : Shape).BroadcastsInDim s ![]) (i : s.Idx) :
    broadcastInDim s ![] h x i = x (fun a => a.elim0) :=
  broadcastInDim_apply ![] h x i (fun a => a.elim0) (fun a => a.elim0)

/-- The vector spelling of a layer, one row at a time. -/
theorem vector_row {φ : FTy} (d : DotDims ⟨2, ![M, K]⟩ ⟨2, ![K, N]⟩ ⟨2, ![M, N]⟩) (hd : d = DotDims.plain M K N)
    (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (z : Ideal .f32) (r : Fin M) :
    row (maximumf (addf (matmul d prec a (truncf .bf16 w hw) (constant ⟨2, ![M, N]⟩ .f32 0x00000000#32))
        (broadcastTo ⟨2, ![M, N]⟩ (shapeCast ⟨2, ![1, N]⟩ b h1) h2)) (broadcast ⟨2, ![M, N]⟩ z)) r
      = layer z (row a r) w b := by
  subst hd
  funext j
  show maximumf _ _ (ix2 r j) = _
  rw [maximumf_apply, broadcast_apply, AffineRow.layer_apply]
  rfl

/-- The host's spelling of a layer, one row at a time. -/
theorem host_row {φ : FTy} (d : DotDims ⟨2, ![M, K]⟩ ⟨2, ![K, N]⟩ ⟨2, ![M, N]⟩) (hd : d = DotDims.plain M K N)
    (prec : Option ContractPrecision) (a : FVec Ideal ⟨2, ![M, K]⟩ φ)
    (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (zc : FVec Ideal ⟨0, ![]⟩ .f32) (h0 : (⟨0, ![]⟩ : Shape).BroadcastsInDim ⟨2, ![M, N]⟩ ![]) (r : Fin M) :
    row (maximumf (addf (Host.dotGeneral d prec a w)
        (broadcastInDim ⟨2, ![M, N]⟩ ![0, 1] h2 (broadcastInDim ⟨2, ![1, N]⟩ ![1] h1 b)))
        (broadcastInDim ⟨2, ![M, N]⟩ ![] h0 zc)) r
      = layer (zc (fun a => a.elim0)) (row a r) w b := by
  subst hd
  funext j
  show maximumf _ _ (ix2 r j) = _
  rw [maximumf_apply, addf_apply, splat_apply, rowsInDim_apply, rowInDim_apply]
  exact congrArg (fun s => max (s + b (ix1 j)) (zc fun a => a.elim0)) (PlainDot.dotGeneral_apply prec .single a w r j)

end Idealize.ShloMosaic.DenseRows

end
-- ==== Proof.LibGatherRows.lean ====
/-
  A gather of whole rows, and of single entries, at a column of start indices, read at an index.

  What x[idx] lowers to for an N × D matrix x (or a vector x of N entries) and E integer indices kept as an
  E × 1 column: result row e is the row of x whose number is the index idx[e, 0] read as a signed integer and
  clamped into [0, N − 1].
-/
import Idealize.ShloMosaic.Lib.ValueIdx

noncomputable section

namespace Idealize.ShloMosaic.GatherRows

open Idealize.ShloMosaic Idealize.ShloMosaic.ValueIdx

variable {α : Type}

/-- The dimension numbers of a row gather: operand [N, D], start indices [E, 1], result [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row e, column q of the gathered rows is x at (the clamped index of e, q). -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowDims N D E wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N D E wf).start (ix2 e q) idx 0 + (rowDims N D E wf).batchCoord (ix2 e q) 0
        + (rowDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e q) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e q) idx 1 + (rowDims N D E wf).batchCoord (ix2 e q) 1
        + (rowDims N D E wf).offCoord (ix2 e q) 1 = q.val
    rw [GatherDims.batchCoord_eq_zero _ _ _ List.not_mem_nil]
    have hs : (rowDims N D E wf).start (ix2 e q) idx 1 = 0 := by
      unfold GatherDims.start
      rw [dif_neg (show ¬ (1 : Fin 2) ∈ (rowDims N D E wf).startIndexMap from by
        show ¬ (1 : Fin 2) ∈ ([0] : List (Fin 2)); decide)]
    rw [hs]
    simp only [Nat.add_zero, Nat.zero_add]
    unfold GatherDims.offCoord
    rw [dif_pos (show (1 : Fin 2) ∈ (rowDims N D E wf).sKept from
      (GatherDims.mem_sKept _ _).mpr ⟨by show ¬ (1 : Fin 2) ∈ ([0] : List (Fin 2)); decide, List.not_mem_nil⟩)]
    rfl

/-- The dimension numbers of an entry gather: operand [N], start indices [E, 1], result [E]. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered entries is x at the clamped index of e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibScatterRows.lean ====
/-
  An accumulating scatter of rows, and of single entries, at a column of indices, read at an index, over the
  extended reals.

  What segment_sum lowers to: E update rows (or E update entries) are added into an N × D matrix (a vector of N
  entries) at the row numbers idx[e, 0], read as signed integers and NOT clamped: an update whose index is outside
  [0, N) is dropped. At (p, q) the result is the operand's entry plus the sum over the updates e of
  (the update's entry (e, q) if idx[e, 0] = p, else 0).
-/
import Idealize.ShloMosaic.Lib.ValueIdx
import Idealize.ShloMosaic.PureOps.Ideal.Laws

noncomputable section

open scoped BigOperators

namespace Idealize.ShloMosaic.ScatterRows

open Idealize.ShloMosaic Idealize.ShloMosaic.ValueIdx

/-- The dimension numbers of a row scatter: operand [N, D], scatter indices [E, 1], updates [E, D]. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem row_start0 : (rowDims N D E wf).start (ix2 e q') idx 0 = (idx (ix2 e (0 : Fin 1))).toInt := by
  unfold ScatterDims.start
  rw [dif_pos (show (0 : Fin 2) ∈ (rowDims N D E wf).scatterDimsToOperandDims from List.mem_singleton.mpr rfl)]
  have hsi : (rowDims N D E wf).siIdx (ix2 e q') ⟨List.idxOf (0 : Fin 2) (rowDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem row_start1 : (rowDims N D E wf).start (ix2 e q') idx 1 = 0 := by
  unfold ScatterDims.start
  rw [dif_neg (show ¬ (1 : Fin 2) ∈ (rowDims N D E wf).scatterDimsToOperandDims from by
    show ¬ (1 : Fin 2) ∈ ([0] : List (Fin 2)); decide)]

theorem row_window0 : (rowDims N D E wf).window (ix2 e q') 0 = 0 := by
  unfold ScatterDims.window
  rw [dif_neg (show ¬ (0 : Fin 2) ∈ (rowDims N D E wf).sKept from by
    simp [ScatterDims.sKept, Shape.kept])]

theorem row_window1 : (rowDims N D E wf).window (ix2 e q') 1 = q'.val := by
  unfold ScatterDims.window
  rw [dif_pos (show (1 : Fin 2) ∈ (rowDims N D E wf).sKept from by
    simp [ScatterDims.sKept, Shape.kept])]
  rfl

/-- An update entry (e, q') lands on (p, q) exactly when its row index is p and its column is q. -/
theorem row_resultIdx_iff (p : Fin N) (q : Fin D) :
    (rowDims N D E wf).resultIdx? (ix2 e q') idx = some (ix2 p q)
      ↔ (idx (ix2 e (0 : Fin 1))).toInt = (p.val : Int) ∧ q' = q := by
  unfold ScatterDims.resultIdx?
  constructor
  · intro h
    split at h
    · next hall =>
      have h0 := congrFun (Option.some.inj h) 0
      have h1 := congrFun (Option.some.inj h) 1
      have e0 := congrArg Fin.val h0
      have e1 := congrArg Fin.val h1
      simp only [row_start0, row_start1, row_window0, row_window1] at e0 e1 hall
      have hb := (hall 0).1
      simp only [row_start0, row_window0] at hb
      refine ⟨?_, Fin.ext ?_⟩
      · have : ((idx (ix2 e (0 : Fin 1))).toInt + ((0 : Nat) : Int)).toNat = p.val := e0
        omega
      · have : ((0 : Int) + (q'.val : Int)).toNat = q.val := e1
        omega
    · exact absurd h (by simp)
  · rintro ⟨hp, rfl⟩
    have hall : ∀ a : Fin 2, 0 ≤ (rowDims N D E wf).start (ix2 e q') idx a + ((rowDims N D E wf).window (ix2 e q') a : Int)
        ∧ (rowDims N D E wf).start (ix2 e q') idx a + ((rowDims N D E wf).window (ix2 e q') a : Int)
          < ((⟨2, ![N, D]⟩ : Shape).size a : Int) := by
      intro a
      match a with
      | ⟨0, _⟩ =>
        show 0 ≤ (rowDims N D E wf).start (ix2 e q') idx 0 + ((rowDims N D E wf).window (ix2 e q') 0 : Int)
          ∧ (rowDims N D E wf).start (ix2 e q') idx 0 + ((rowDims N D E wf).window (ix2 e q') 0 : Int) < (N : Int)
        rw [row_start0, row_window0, hp]
        have := p.isLt
        omega
      | ⟨1, _⟩ =>
        show 0 ≤ (rowDims N D E wf).start (ix2 e q') idx 1 + ((rowDims N D E wf).window (ix2 e q') 1 : Int)
          ∧ (rowDims N D E wf).start (ix2 e q') idx 1 + ((rowDims N D E wf).window (ix2 e q') 1 : Int) < (D : Int)
        rw [row_start1, row_window1]
        have := q'.isLt
        omega
    rw [dif_pos hall]
    refine congrArg some (funext fun a => Fin.ext ?_)
    match a with
    | ⟨0, _⟩ =>
      show ((rowDims N D E wf).start (ix2 e q') idx 0 + ((rowDims N D E wf).window (ix2 e q') 0 : Int)).toNat = p.val
      rw [row_start0, row_window0, hp]; omega
    | ⟨1, _⟩ =>
      show ((rowDims N D E wf).start (ix2 e q') idx 1 + ((rowDims N D E wf).window (ix2 e q') 1 : Int)).toNat = q'.val
      rw [row_start1, row_window1]; omega

end Rows

/-- THE ROW SCATTER READ AT (p, q): the operand's entry plus, over the updates e, the entry (e, q) of the updates
    whose row index is p. -/
theorem scatterAdd_rows_apply {N D E w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (p : Fin N) (q : Fin D) :
    Host.scatterAdd (rowDims N D E wf) x idx upd (ix2 p q)
      = x (ix2 p q) + ∑ e : Fin E, if (idx (ix2 e (0 : Fin 1))).toInt = (p.val : Int) then upd (ix2 e q) else 0 := by
  show Ideal.hostScatterAdd (rowDims N D E wf) x idx upd (ix2 p q) = _
  unfold Ideal.hostScatterAdd
  refine congrArg (x (ix2 p q) + ·) ?_
  rw [Finset.sum_filter, sum_idx2]
  refine Finset.sum_congr rfl fun e _ => ?_
  simp only [row_resultIdx_iff wf idx e _ p q]
  by_cases hp : (idx (ix2 e (0 : Fin 1))).toInt = (p.val : Int)
  · simp only [hp, true_and, if_true]
    rw [Finset.sum_ite_eq' Finset.univ q (fun b => upd (ix2 e b))]
    simp
  · simp only [hp, false_and, if_false, Finset.sum_const_zero]

/-- The dimension numbers of an entry scatter: operand [N], scatter indices [E, 1], updates [E]. -/
abbrev entryDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entry_start0 : (entryDims N E wf).start (ix1 e) idx 0 = (idx (ix2 e (0 : Fin 1))).toInt := by
  unfold ScatterDims.start
  rw [dif_pos (show (0 : Fin 1) ∈ (entryDims N E wf).scatterDimsToOperandDims from List.mem_singleton.mpr rfl)]
  have hsi : (entryDims N E wf).siIdx (ix1 e) ⟨List.idxOf (0 : Fin 1) (entryDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem entry_window0 : (entryDims N E wf).window (ix1 e) 0 = 0 := by
  unfold ScatterDims.window
  rw [dif_neg (show ¬ (0 : Fin 1) ∈ (entryDims N E wf).sKept from by
    simp [ScatterDims.sKept, Shape.kept])]

/-- An update entry e lands on p exactly when its index is p. -/
theorem entry_resultIdx_iff (p : Fin N) :
    (entryDims N E wf).resultIdx? (ix1 e) idx = some (ix1 p) ↔ (idx (ix2 e (0 : Fin 1))).toInt = (p.val : Int) := by
  unfold ScatterDims.resultIdx?
  constructor
  · intro h
    split at h
    · next hall =>
      have h0 := congrFun (Option.some.inj h) 0
      have e0 := congrArg Fin.val h0
      have hb := (hall 0).1
      simp only [entry_start0, entry_window0] at hb
      have : ((entryDims N E wf).start (ix1 e) idx 0 + ((entryDims N E wf).window (ix1 e) 0 : Int)).toNat = p.val := e0
      rw [entry_start0, entry_window0] at this
      omega
    · exact absurd h (by simp)
  · intro hp
    have hall : ∀ a : Fin 1, 0 ≤ (entryDims N E wf).start (ix1 e) idx a + ((entryDims N E wf).window (ix1 e) a : Int)
        ∧ (entryDims N E wf).start (ix1 e) idx a + ((entryDims N E wf).window (ix1 e) a : Int)
          < ((⟨1, ![N]⟩ : Shape).size a : Int) := by
      intro a
      obtain rfl : a = 0 := Subsingleton.elim _ _
      rw [entry_start0, entry_window0, hp]
      have := p.isLt
      show (0 : Int) ≤ (p.val : Int) + ((0 : Nat) : Int) ∧ (p.val : Int) + ((0 : Nat) : Int) < (N : Int)
      omega
    rw [dif_pos hall]
    refine congrArg some (funext fun a => Fin.ext ?_)
    obtain rfl : a = 0 := Subsingleton.elim _ _
    show ((entryDims N E wf).start (ix1 e) idx 0 + ((entryDims N E wf).window (ix1 e) 0 : Int)).toNat = p.val
    rw [entry_start0, entry_window0, hp]; omega

end Entries

/-- A sum over a rank-1 index is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ENTRY SCATTER READ AT p: the operand's entry plus, over the updates e, the update whose index is p. -/
theorem scatterAdd_entries_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (p : Fin N) :
    Host.scatterAdd (entryDims N E wf) x idx upd (ix1 p)
      = x (ix1 p) + ∑ e : Fin E, if (idx (ix2 e (0 : Fin 1))).toInt = (p.val : Int) then upd (ix1 e) else 0 := by
  show Ideal.hostScatterAdd (entryDims N E wf) x idx upd (ix1 p) = _
  unfold Ideal.hostScatterAdd
  refine congrArg (x (ix1 p) + ·) ?_
  rw [Finset.sum_filter, sum_idx1]
  refine Finset.sum_congr rfl fun e _ => ?_
  simp only [entry_resultIdx_iff wf idx e p]

end Idealize.ShloMosaic.ScatterRows

end
-- ==== Proof.RefSide.lean ====
/-
  The reference program's result is the layer of the shared specification with each column's variance taken as
  the mean of the squared deviations from the column's mean.

  The program is two stages "dense layer, clamp at zero, batch normalisation" on the node features plus the
  neighbour sums. Each stage is written once over an arbitrary array: the dense layer at (r, j) is
  max (Σ_k A(r, k) · W(k, j) + b(j), 0); the normalisation at (r, j) is
  g(j) · (H(r, j) − μ(j)) · (v(j) + ε)^(−1/2) + β(j), with μ(j) the column sum over the count and v(j) the sum of
  the squared deviations over the count. Reading each spread of a row over the rows, each spread of a constant and
  each column sum at an index gives the specification's terms literally; the zero each sum starts from is dropped.
  No finiteness is needed.
-/
import proofs.«129211_j18184891531553_1_alg».proof.Proof.Gen.ReferenceIdeal.Read
import proofs.«129211_j18184891531553_1_alg».proof.Proof.Spec
import proofs.«129211_j18184891531553_1_alg».proof.Proof.LibDenseRows
import proofs.«129211_j18184891531553_1_alg».proof.Proof.LibRowSpread
import proofs.«129211_j18184891531553_1_alg».proof.Proof.LibRealSums
import proofs.«129211_j18184891531553_1_alg».proof.Proof.LibGatherRows
import proofs.«129211_j18184891531553_1_alg».proof.Proof.LibScatterRows

noncomputable section

open scoped BigOperators

namespace Cert.RefSide

open Cert.ReferenceIdeal Cert.ReferenceIdeal.Gen Cert.ReferenceIdeal.Read
open Idealize.ShloMosaic Idealize.ShloMosaic.ValueIdx Idealize.ShloMosaic.StableHlo

/-! ## One stage over an arbitrary array -/

/-- A vector of 128 numbers spread over the 100000 rows. -/
def spread (y : FVec Ideal S128 .f32) : FVec Ideal S100000x128 .f32 :=
  broadcastInDim S100000x128 ![0, 1] bcast_S1x128_S100000x128_0_1 (broadcastInDim S1x128 ![1] bcast_S128_S1x128_1 y)

theorem spread_apply (y : FVec Ideal S128 .f32) (r : Fin 100000) (j : Fin 128) : spread y (ix2 r j) = y (ix1 j) := by
  unfold spread
  rw [DenseRows.rowsInDim_apply, DenseRows.rowInDim_apply]

/-- A constant word spread over 128 entries. -/
def splat (w : BitVec 32) : FVec Ideal S128 .f32 := broadcastInDim S128 ![] bcast_S_S128 (constant S_ .f32 w)

theorem splat_apply (w : BitVec 32) (i : S128.Idx) : splat w i = Ideal.ofBits .f32 w := by
  unfold splat
  rw [DenseRows.splat_apply]
  rfl

/-- The sum of each column over the rows, from zero. -/
def sums (H : FVec Ideal S100000x128 .f32) : FVec Ideal S128 .f32 :=
  Host.reduceAdd H (constant S_ .f32 0x00000000#32) reducesTo_S100000x128_S128_d0 h_S_

theorem sums_apply (H : FVec Ideal S100000x128 .f32) (j : Fin 128) : sums H (ix1 j) = ∑ r : Fin 100000, H (ix2 r j) := by
  unfold sums
  simp only [Host.reduceAdd, Ideal.hostReduceAdd_def]
  rw [Ideal.hostReduceAdd_single reducesTo_S100000x128_S128_d0 (by decide)]
  have h0 : (constant S_ .f32 0x00000000#32 : FVec Ideal S_ .f32) (Shape.Idx.first h_S_) = 0 := Ideal.ofBits_zero_f32
  rw [h0, zero_add]
  refine Finset.sum_congr rfl fun k _ => congrArg H ?_
  exact funext fun a => Fin.ext (by match a with | ⟨0, _⟩ => rfl | ⟨1, _⟩ => rfl)

/-- The column means: the column sums over the count. -/
def means (H : FVec Ideal S100000x128 .f32) : FVec Ideal S128 .f32 := Host.divf (sums H) (splat 0x47C35000#32)

/-- The deviations from the column means. -/
def devs (H : FVec Ideal S100000x128 .f32) : FVec Ideal S100000x128 .f32 := subf H (spread (means H))

/-- The column variances: the sums of the squared deviations over the count. -/
def vars (H : FVec Ideal S100000x128 .f32) : FVec Ideal S128 .f32 :=
  Host.divf (sums (mulf (devs H) (devs H))) (splat 0x47C35000#32)

/-- The normalisation as the program spells it. -/
def bn (H : FVec Ideal S100000x128 .f32) (g be : FVec Ideal S128 .f32) : FVec Ideal S100000x128 .f32 :=
  addf (mulf (mulf (spread g) (devs H)) (spread (Host.rsqrt (addf (vars H) (splat 0x3727C5AC#32))))) (spread be)

theorem means_apply (H : FVec Ideal S100000x128 .f32) (j : Fin 128) :
    means H (ix1 j) = Spec.mean (Spec.colSum (Spec.mat H)) j := by
  show Ideal.div (sums H (ix1 j)) (splat 0x47C35000#32 (ix1 j)) = _
  rw [sums_apply, splat_apply]
  rfl

theorem devs_apply (H : FVec Ideal S100000x128 .f32) (r : Fin 100000) (j : Fin 128) :
    devs H (ix2 r j) = Spec.mat H r j - Spec.mean (Spec.colSum (Spec.mat H)) j := by
  show H (ix2 r j) - spread (means H) (ix2 r j) = _
  rw [spread_apply, means_apply]
  rfl

theorem vars_apply (H : FVec Ideal S100000x128 .f32) (j : Fin 128) :
    vars H (ix1 j) = Spec.varCentred (Spec.mat H) j := by
  show Ideal.div (sums (mulf (devs H) (devs H)) (ix1 j)) (splat 0x47C35000#32 (ix1 j)) = _
  rw [sums_apply, splat_apply]
  simp only [mulf_apply, devs_apply]
  rfl

/-- The normalisation, entry by entry, is the specification's with the variance as the mean squared deviation. -/
theorem bn_mat (H : FVec Ideal S100000x128 .f32) (g be : FVec Ideal S128 .f32) :
    Spec.mat (bn H g be) = Spec.bnCentred (Spec.mat H) (Spec.vec g) (Spec.vec be) := by
  funext r j
  show spread g (ix2 r j) * devs H (ix2 r j)
      * spread (Host.rsqrt (addf (vars H) (splat 0x3727C5AC#32))) (ix2 r j) + spread be (ix2 r j) = _
  rw [spread_apply, spread_apply, spread_apply, devs_apply]
  show _ * _ * Ideal.rsqrt (vars H (ix1 j) + splat 0x3727C5AC#32 (ix1 j)) + _ = _
  rw [vars_apply, splat_apply]
  rfl

/-- A dense layer with the clamp at zero as the program spells it, for a plain product of any inner extent. -/
def dense {K : Nat} (d : DotDims ⟨2, ![100000, K]⟩ ⟨2, ![K, 128]⟩ S100000x128) (A : FVec Ideal ⟨2, ![100000, K]⟩ .f32)
    (W : FVec Ideal ⟨2, ![K, 128]⟩ .f32) (b : FVec Ideal S128 .f32) : FVec Ideal S100000x128 .f32 :=
  maximumf (addf (Host.dotGeneral d none A W) (spread b))
    (broadcastInDim S100000x128 ![] bcast_S_S100000x128 (constant S_ .f32 0x00000000#32))

/-- The dense layer, entry by entry, is the specification's. -/
theorem dense_mat {K : Nat} (d : DotDims ⟨2, ![100000, K]⟩ ⟨2, ![K, 128]⟩ S100000x128) (hd : d = DotDims.plain 100000 K 128)
    (A : FVec Ideal ⟨2, ![100000, K]⟩ .f32) (W : FVec Ideal ⟨2, ![K, 128]⟩ .f32) (b : FVec Ideal S128 .f32) :
    Spec.mat (dense d A W b) = Spec.dense (Spec.mat A) (Spec.mat W) (Spec.vec b) := by
  funext r j
  have h := congrFun (DenseRows.host_row d hd none A W b bcast_S128_S1x128_1 bcast_S1x128_S100000x128_0_1
    (constant S_ .f32 0x00000000#32) bcast_S_S100000x128 r) j
  exact h

/-! ## The program's values as the two stages -/

/-- Both products contract the left operand's columns with the right operand's rows. -/
theorem dot1_plain : dot_S100000x64_S64x128_S100000x128_1_0_0_1_n_n = DotDims.plain 100000 64 128 := rfl
theorem dot2_plain : dot_S100000x128_S128x128_S100000x128_1_0_0_1_n_n = DotDims.plain 100000 128 128 := rfl

section
variable (x0 : (⟨S100000x64, .f32⟩ : BufTy).Contents (Elt Ideal)) (x1 : (⟨S2x1250000, .i32⟩ : BufTy).Contents (Elt Ideal))
  (x2 : (⟨S64x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))

theorem v20_eq : val_main_v20 (F := Ideal) x0 x1 x2 x3
    = dense dot_S100000x64_S64x128_S100000x128_1_0_0_1_n_n (val_main_v14 (F := Ideal) x0 x1) x2 x3 := rfl

theorem v45_eq : val_main_v45 (F := Ideal) x0 x1 x2 x3 x4 x5 = bn (val_main_v20 (F := Ideal) x0 x1 x2 x3) x4 x5 := rfl

theorem v51_eq : val_main_v51 (F := Ideal) x0 x1 x2 x3 x4 x5 x6 x7
    = dense dot_S100000x128_S128x128_S100000x128_1_0_0_1_n_n (val_main_v45 (F := Ideal) x0 x1 x2 x3 x4 x5) x6 x7 := rfl

theorem v76_eq : val_main_v76 (F := Ideal) x0 x1 x2 x3 x4 x5 x6 x7 x8 x9
    = bn (val_main_v51 (F := Ideal) x0 x1 x2 x3 x4 x5 x6 x7) x8 x9 := rfl

/-- The first stage's input: the node features plus the neighbour sums, entry by entry. -/
theorem v14_mat : Spec.mat (val_main_v14 (F := Ideal) x0 x1)
    = fun r k => Spec.mat x0 r k + Spec.mat (val_main_v13 (F := Ideal) x0 x1) r k := rfl

/-- The reference's result as a matrix is the specification's layer with the variance as the mean squared deviation. -/
theorem result_mat : Spec.mat (val_main_v76 (F := Ideal) x0 x1 x2 x3 x4 x5 x6 x7 x8 x9)
    = Spec.fwdCentred (Spec.mat x0) (Spec.mat (val_main_v13 (F := Ideal) x0 x1)) (Spec.mat x2) (Spec.vec x3) (Spec.vec x4)
        (Spec.vec x5) (Spec.mat x6) (Spec.vec x7) (Spec.vec x8) (Spec.vec x9) := by
  unfold Spec.fwdCentred
  rw [v76_eq, bn_mat, v51_eq, dense_mat _ dot2_plain, v45_eq, bn_mat, v20_eq, dense_mat _ dot1_plain, v14_mat]

end

open Idealize.ShloMosaic Idealize.ShloMosaic.ValueIdx Cert.ReferenceIdeal in
theorem result_apply (x0 : (⟨S100000x64, .f32⟩ : BufTy).Contents (Elt Ideal)) (x1 : (⟨S2x1250000, .i32⟩ : BufTy).Contents (Elt Ideal))
    (x2 : (⟨S64x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (r : Fin 100000) (j : Fin 128) :
    Cert.ReferenceIdeal.Read.val_main_v76 (F := Ideal) x0 x1 x2 x3 x4 x5 x6 x7 x8 x9 (ix2 r j)
      = Cert.Spec.fwdCentred (Cert.Spec.mat x0) (Cert.Spec.mat (Cert.ReferenceIdeal.Read.val_main_v13 (F := Ideal) x0 x1))
          (Cert.Spec.mat x2) (Cert.Spec.vec x3) (Cert.Spec.vec x4) (Cert.Spec.vec x5) (Cert.Spec.mat x6)
          (Cert.Spec.vec x7) (Cert.Spec.vec x8) (Cert.Spec.vec x9) r j :=
  congrFun (congrFun (result_mat x0 x1 x2 x3 x4 x5 x6 x7 x8 x9) r) j

/-! ## The neighbour sums of reals are real -/

/-- The scatter's and the gather's dimension numbers are those of whole rows at one column of indices. -/
theorem scatter_wf : ScatterDims.WF ⟨2, ![100000, 64]⟩ ⟨2, ![1250000, 1]⟩ ⟨2, ![1250000, 64]⟩ [1] [0] [0] 1 :=
  scatter_S100000x64_S1250000x1_S1250000x64_1_0_0_1.wf
theorem gather_wf : GatherDims.WF ⟨2, ![100000, 64]⟩ ⟨2, ![1250000, 1]⟩ ⟨2, ![1250000, 64]⟩ [1] [0] [] [0] [] 1 ![1, 64] :=
  gather_S100000x64_S1250000x1_S1250000x64_1_0_n_n_0_1_164.wf
theorem scatter_rows : scatter_S100000x64_S1250000x1_S1250000x64_1_0_0_1
    = ScatterRows.rowDims 100000 64 1250000 scatter_wf := rfl
theorem gather_rows : gather_S100000x64_S1250000x1_S1250000x64_1_0_n_n_0_1_164
    = GatherRows.rowDims 100000 64 1250000 gather_wf := rfl

/-- Entry (p, q) of the neighbour sums is zero plus a sum, over the edges, of an entry of the node features or
    zero: the scatter adds, into the zero matrix, the rows of the features gathered at one column of indices, at
    the rows the other column names. Whatever the indices are, a finite sum of reals and zeros is real. -/
theorem agg_isReal (x0 : (⟨Cert.ReferenceIdeal.S100000x64, .f32⟩ : BufTy).Contents (Elt Ideal)) (x1 : (⟨Cert.ReferenceIdeal.S2x1250000, .i32⟩ : BufTy).Contents (Elt Ideal))
    (hx : ∀ i, Cert.Spec.IsReal (x0 i)) (p : Fin 100000) (q : Fin 64) :
    Cert.Spec.IsReal (Cert.ReferenceIdeal.Read.val_main_v13 (F := Ideal) x0 x1 (ix2 p q)) := by
  unfold val_main_v13
  rw [scatter_rows, ScatterRows.scatterAdd_rows_apply]
  refine RealSums.isReal_add ?_ (RealSums.isReal_sum _ fun e => ?_)
  · rw [val_main_v11_apply, val_main_cst_apply]
    exact ⟨0, Ideal.ofBits_zero_f32⟩
  · split
    · unfold val_main_v10
      rw [gather_rows, GatherRows.gather_rows_apply (by decide)]
      exact hx _
    · exact RealSums.isReal_zero

end Cert.RefSide

end
-- ==== Proof.LibFiniteAll.lean ====
/-
  "Every entry is finite", written as a program, says every entry is a real number.

  A program tests finiteness of a float array x by comparing |x| with +inf entry by entry, and-reducing the
  resulting bits over all axes from the bit 1 into a single bit. On the extended reals |x| = max x (−x), the
  f32 word 0x7F800000 denotes +inf, and max x (−x) < +inf fails exactly at x = +inf and x = −inf (where the
  maximum is +inf). An and-reduction over all axes is 1 only when every bit is 1. So the single bit being 1
  says every entry of x is the image of a real number.
-/
import Idealize.ShloMosaic.PureOps.Ideal
import Idealize.ShloMosaic.Lib.ReduceAll
import Idealize.ShloMosaic.Lib.ValueIdx

noncomputable section

namespace Cert.FiniteAll

open Idealize.ShloMosaic Idealize.ShloMosaic.ValueIdx

/-- The f32 word with all exponent bits set and no fraction bit denotes +inf. -/
theorem ofBits_inf_f32 : Ideal.ofBits .f32 0x7F800000#32 = (⊤ : EReal) := by
  simp [Ideal.ofBits, Ideal.ieee]

/-- An extended real whose absolute value max x (−x) is strictly below +inf is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- A rank-0 shape has one index. -/
instance subsingleton_idx0 : Subsingleton (⟨0, ![]⟩ : Shape).Idx := ⟨fun a b => funext fun d => d.elim0⟩

/-- The finiteness test of a float array of any shape: if the and-reduction over all axes of the bits
    |x| < +inf (the bound a broadcast rank-0 constant, the reduction started from the bit 1) is the bit 1,
    every entry of the array is a real number. -/
theorem all_real_of_test {s : Shape} {axes : List (Fin s.rank)}
    (bc : (⟨0, ![]⟩ : Shape).BroadcastsInDim s (![] : Fin 0 → Fin s.rank))
    (rd : s.ReducesTo axes (⟨0, ![]⟩ : Shape)) (hu : 0 < (⟨0, ![]⟩ : Shape).numel)
    (a : FVec Ideal s .f32)
    (h : Host.reduce IntOp.andi
          (cmpf .olt (Host.absf a)
            (broadcastInDim s ![] bc (constant (F := Ideal) (⟨0, ![]⟩ : Shape) .f32 0x7F800000#32)))
          (constantI (⟨0, ![]⟩ : Shape) 1 1#1) rd hu ix0 = 1#1) :
    ∀ i, ∃ r : ℝ, a i = (r : EReal) := by
  intro i
  exact real_of_abs_lt_inf (a i) (Host.reduce_andi_all _ _ rd hu ix0 h i)

end Cert.FiniteAll

end
-- ==== Proof.FiniteArgs.lean ====
/-
  From the precondition to "every float argument entry is a real number".

  The precondition tests each of the nine float arguments for finiteness, |x| < +inf entry by entry and-reduced to a
  single bit, and joins the nine bits by and. A conjunction of bits is 1 only when each bit is 1, and a finiteness
  bit that is 1 says every entry of its array is the image of a real number.
-/
import Idealize.ShloMosaic.Lib.ValueIdx
import Idealize.ShloMosaic.Lib.Affine
import Idealize.ShloMosaic.Lib.ReduceAll
import proofs.«129211_j18184891531553_1_alg».proof.Pre_finite_inputs
import proofs.«129211_j18184891531553_1_alg».proof.Proof.LibFiniteAll
import proofs.«129211_j18184891531553_1_alg».proof.Proof.Spec

noncomputable section

namespace Cert.FiniteArgs

open Idealize.ShloMosaic Cert.Pre_finite_inputs Cert.Pre_finite_inputs.Facts

/-- If the precondition's bit is 1, every entry of every float argument is a real number. -/
theorem all_real [Cert.Pre_finite_inputs.Facts] (x0 : FVec Ideal S100000x64 .f32) (x1 : IVec S2x1250000 32)
    (x2 : FVec Ideal S64x128 .f32) (x3 x4 x5 : FVec Ideal S128 .f32) (x6 : FVec Ideal S128x128 .f32)
    (x7 x8 x9 : FVec Ideal S128 .f32)
    (h : Cert.Pre_finite_inputs.fn (F := Ideal) x0 x1 x2 x3 x4 x5 x6 x7 x8 x9 = fun _ => 1#1) :
    (∀ i, Cert.Spec.IsReal (x0 i)) ∧ (∀ i, Cert.Spec.IsReal (x2 i)) ∧ (∀ i, Cert.Spec.IsReal (x3 i))
      ∧ (∀ i, Cert.Spec.IsReal (x4 i)) ∧ (∀ i, Cert.Spec.IsReal (x5 i)) ∧ (∀ i, Cert.Spec.IsReal (x6 i))
      ∧ (∀ i, Cert.Spec.IsReal (x7 i)) ∧ (∀ i, Cert.Spec.IsReal (x8 i)) ∧ (∀ i, Cert.Spec.IsReal (x9 i)) := by
  have h0 := congrFun h ValueIdx.ix0
  dsimp only [Cert.Pre_finite_inputs.fn, Cert.Pre_finite_inputs.fn_part1, Cert.Pre_finite_inputs.fn_part2] at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨Cert.FiniteAll.all_real_of_test bcast_S_S100000x64 reducesTo_S100000x64_S_d0_1 h_S_ x0 h0,
    Cert.FiniteAll.all_real_of_test bcast_S_S64x128 reducesTo_S64x128_S_d0_1 h_S_ x2 h2,
    Cert.FiniteAll.all_real_of_test bcast_S_S128 reducesTo_S128_S_d0 h_S_ x3 h3,
    Cert.FiniteAll.all_real_of_test bcast_S_S128 reducesTo_S128_S_d0 h_S_ x4 h4,
    Cert.FiniteAll.all_real_of_test bcast_S_S128 reducesTo_S128_S_d0 h_S_ x5 h5,
    Cert.FiniteAll.all_real_of_test bcast_S_S128x128 reducesTo_S128x128_S_d0_1 h_S_ x6 h6,
    Cert.FiniteAll.all_real_of_test bcast_S_S128 reducesTo_S128_S_d0 h_S_ x7 h7,
    Cert.FiniteAll.all_real_of_test bcast_S_S128 reducesTo_S128_S_d0 h_S_ x8 h8,
    Cert.FiniteAll.all_real_of_test bcast_S_S128 reducesTo_S128_S_d0 h_S_ x9 h9⟩

end Cert.FiniteArgs

end
-- ==== Proof.lean ====
/-
  The kernel and the reference compute the same layer on 100000 nodes: two stages "dense layer, clamp at zero,
  batch normalisation" on the node features plus the neighbour sums. The kernel takes each column's variance from the
  two moments, (Σ H²)/n − ((Σ H)/n)², the reference as the mean of the squared deviations from the mean. The
  precondition makes every float argument entry a real number; the neighbour sums of reals are real, so every column
  the normalisations meet is a column of reals, and on such a column the two variances are the same number
  (the law Cert.Spec.fwd_eq). Everything else is term for term the same, so the two results agree entry by entry;
  the three programs' runs terminate with their arguments unchanged.
-/
import proofs.«129211_j18184891531553_1_alg».proof.Defs
import proofs.«129211_j18184891531553_1_alg».proof.Proof.Gen.Kernel
import proofs.«129211_j18184891531553_1_alg».proof.Proof.Gen.Kernel.Skeleton
import proofs.«129211_j18184891531553_1_alg».proof.Proof.Gen.Kernel.Launch
import proofs.«129211_j18184891531553_1_alg».proof.Proof.Gen.Kernel.Points
import proofs.«129211_j18184891531553_1_alg».proof.Proof.Gen.Kernel.Frame
import proofs.«129211_j18184891531553_1_alg».proof.Proof.Gen.KernelIdeal
import proofs.«129211_j18184891531553_1_alg».proof.Proof.Gen.KernelIdeal.Skeleton
import proofs.«129211_j18184891531553_1_alg».proof.Proof.Gen.KernelIdeal.Launch
import proofs.«129211_j18184891531553_1_alg».proof.Proof.Gen.KernelIdeal.Points
import proofs.«129211_j18184891531553_1_alg».proof.Proof.Gen.KernelIdeal.Frame
import proofs.«129211_j18184891531553_1_alg».proof.Proof.Gen.ReferenceIdeal
import proofs.«129211_j18184891531553_1_alg».proof.Proof.Gen.ReferenceIdeal.Run
import proofs.«129211_j18184891531553_1_alg».proof.Proof.Gen.ReferenceIdeal.Read
import proofs.«129211_j18184891531553_1_alg».proof.Proof.Gen.Pre_finite_inputs
import Idealize.ShloMosaic.Adequacy
import Idealize.ShloMosaic.Init
import proofs.«129211_j18184891531553_1_alg».proof.Proof.KernelRun
import proofs.«129211_j18184891531553_1_alg».proof.Proof.KernelValue
import proofs.«129211_j18184891531553_1_alg».proof.Proof.RefSide
import proofs.«129211_j18184891531553_1_alg».proof.Proof.FiniteArgs
import proofs.«129211_j18184891531553_1_alg».proof.Proof.Spec
import proofs.«129211_j18184891531553_1_alg».proof.Proof.Arr

noncomputable section

namespace Cert.Proof

open Idealize.ShloMosaic Idealize.SL.Sem Idealize.ShloMosaic.ValueIdx

/-- Under the precondition the reference's result is the specification's layer with the variance from the two
    moments: it is the layer with the variance as the mean squared deviation, entry by entry, and on real arguments
    (the precondition) with real neighbour sums the two layers are one. -/
theorem ref_value (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S64x128, .f32⟩ : BufTy).Contents (Elt Ideal)) (x3 x4 x5 : (⟨Cert.ReferenceIdeal.S128, .f32⟩ : BufTy).Contents (Elt Ideal))
    (x6 : (⟨Cert.ReferenceIdeal.S128x128, .f32⟩ : BufTy).Contents (Elt Ideal)) (x7 x8 x9 : (⟨Cert.ReferenceIdeal.S128, .f32⟩ : BufTy).Contents (Elt Ideal))
    (hpre : Cert.Pre_finite_inputs.fn (F := Ideal) x0 x1 x2 x3 x4 x5 x6 x7 x8 x9 = fun _ => 1#1) :
    Cert.ReferenceIdeal.Read.val_main_v76 (F := Ideal) x0 x1 x2 x3 x4 x5 x6 x7 x8 x9
      = Cert.Spec.arrOf (Cert.Spec.fwdMoments (Cert.Spec.mat x0) (Cert.Spec.mat (Cert.ReferenceIdeal.Read.val_main_v13 (F := Ideal) x0 x1))
        (Cert.Spec.mat x2) (Cert.Spec.vec x3) (Cert.Spec.vec x4) (Cert.Spec.vec x5) (Cert.Spec.mat x6) (Cert.Spec.vec x7)
        (Cert.Spec.vec x8) (Cert.Spec.vec x9)) := by
  obtain ⟨r0, r2, r3, r4, r5, r6, r7, _, _⟩ := Cert.FiniteArgs.all_real x0 x1 x2 x3 x4 x5 x6 x7 x8 x9 hpre
  have law := Cert.Spec.fwd_eq (Cert.Spec.mat x0) (Cert.Spec.mat (Cert.ReferenceIdeal.Read.val_main_v13 (F := Ideal) x0 x1))
        (Cert.Spec.mat x2) (Cert.Spec.vec x3) (Cert.Spec.vec x4) (Cert.Spec.vec x5) (Cert.Spec.mat x6) (Cert.Spec.vec x7)
        (Cert.Spec.vec x8) (Cert.Spec.vec x9)
    (fun _ _ => r0 _) (fun r k => Cert.RefSide.agg_isReal x0 x1 r0 r k) (fun _ _ => r2 _) (fun _ => r3 _) (fun _ => r4 _)
    (fun _ => r5 _) (fun _ _ => r6 _) (fun _ => r7 _)
  funext i
  calc Cert.ReferenceIdeal.Read.val_main_v76 (F := Ideal) x0 x1 x2 x3 x4 x5 x6 x7 x8 x9 i
      = Cert.ReferenceIdeal.Read.val_main_v76 (F := Ideal) x0 x1 x2 x3 x4 x5 x6 x7 x8 x9 (ix2 (i 0) (i 1)) := congrArg _ (eq_ix2 i)
    _ = Cert.Spec.fwdCentred (Cert.Spec.mat x0) (Cert.Spec.mat (Cert.ReferenceIdeal.Read.val_main_v13 (F := Ideal) x0 x1))
        (Cert.Spec.mat x2) (Cert.Spec.vec x3) (Cert.Spec.vec x4) (Cert.Spec.vec x5) (Cert.Spec.mat x6) (Cert.Spec.vec x7)
        (Cert.Spec.vec x8) (Cert.Spec.vec x9) (i 0) (i 1) := Cert.RefSide.result_apply x0 x1 x2 x3 x4 x5 x6 x7 x8 x9 (i 0) (i 1)
    _ = Cert.Spec.fwdMoments (Cert.Spec.mat x0) (Cert.Spec.mat (Cert.ReferenceIdeal.Read.val_main_v13 (F := Ideal) x0 x1))
        (Cert.Spec.mat x2) (Cert.Spec.vec x3) (Cert.Spec.vec x4) (Cert.Spec.vec x5) (Cert.Spec.mat x6) (Cert.Spec.vec x7)
        (Cert.Spec.vec x8) (Cert.Spec.vec x9) (i 0) (i 1) := (congrFun (congrFun law (i 0)) (i 1)).symm
    _ = Cert.Spec.arrOf (Cert.Spec.fwdMoments (Cert.Spec.mat x0) (Cert.Spec.mat (Cert.ReferenceIdeal.Read.val_main_v13 (F := Ideal) x0 x1))
        (Cert.Spec.mat x2) (Cert.Spec.vec x3) (Cert.Spec.vec x4) (Cert.Spec.vec x5) (Cert.Spec.mat x6) (Cert.Spec.vec x7)
        (Cert.Spec.vec x8) (Cert.Spec.vec x9)) i := rfl

/-- From memories agreeing on the arguments both programs run and end with equal results: the kernel's is the
    specification's layer of its arguments, and so is the reference's. -/
theorem algebraic : Cert.algebraic_KernelIdeal_ReferenceIdeal := by
  intro m ρ m' ρ' hpre hagree
  refine ⟨_, (θ_run Cert.KernelIdeal.defs _ _).mono
    (fun _ h c => ⟨(h c).1.trans (Cert.KernelIdeal.Val.result m ρ c), (h c).2⟩) (Cert.KernelIdeal.Val.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v76_eq, h0, h1, h2, h3, h4, h5, h6, h7, h8, h9]
  exact ref_value _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
